-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v60_0)) (v1 : (c : Dev Cert.KernelIdeal.nD) → Buf (Elt Ideal) ((c.tc : Thread Cert.KernelIdeal.nD Cert.KernelIdeal.τ).loc Cert.KernelIdeal.main_v60_1)) (v2 : (c : Dev Cert.KernelIdeal.nD) → Buf (Elt Ideal) ((c.tc : Thread Cert.KernelIdeal.nD Cert.KernelIdeal.τ).loc Cert.KernelIdeal.main_v60_2)) (v3 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60_0) = v0 c
          ∧ r.2.mem ((c.tc : Thread Cert.KernelIdeal.nD Cert.KernelIdeal.τ).loc Cert.KernelIdeal.main_v60_1) = v1 c
          ∧ r.2.mem ((c.tc : Thread Cert.KernelIdeal.nD Cert.KernelIdeal.τ).loc Cert.KernelIdeal.main_v60_2) = v2 c
          ∧ r.2.mem ((c.tc : Thread Cert.KernelIdeal.nD Cert.KernelIdeal.τ).loc Cert.KernelIdeal.main_v62) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v80) = v2 c
          ∧ r.2.mem ((c.tc : Thread Cert.ReferenceIdeal.nD Cert.ReferenceIdeal.τ).loc Cert.ReferenceIdeal.main_v104) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S16384x40 : Shape := ⟨2, ![16384, 40]⟩
abbrev S2048x256 : Shape := ⟨2, ![2048, 256]⟩
abbrev S256 : Shape := ⟨1, ![256]⟩
abbrev S40x256 : Shape := ⟨2, ![40, 256]⟩
abbrev S256x256 : Shape := ⟨2, ![256, 256]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S16384x40 : S_.BroadcastsInDim S16384x40 (![] : Fin 0 → Fin S16384x40.rank)
  reducesTo_S16384x40_S_d0_1 : S16384x40.ReducesTo [0, 1] S_
  bcast_S_S2048x256 : S_.BroadcastsInDim S2048x256 (![] : Fin 0 → Fin S2048x256.rank)
  reducesTo_S2048x256_S_d0_1 : S2048x256.ReducesTo [0, 1] S_
  bcast_S_S256 : S_.BroadcastsInDim S256 (![] : Fin 0 → Fin S256.rank)
  reducesTo_S256_S_d0 : S256.ReducesTo [0] S_
  bcast_S_S40x256 : S_.BroadcastsInDim S40x256 (![] : Fin 0 → Fin S40x256.rank)
  reducesTo_S40x256_S_d0_1 : S40x256.ReducesTo [0, 1] S_
  bcast_S_S256x256 : S_.BroadcastsInDim S256x256 (![] : Fin 0 → Fin S256x256.rank)
  reducesTo_S256x256_S_d0_1 : S256x256.ReducesTo [0, 1] S_

variable [Facts]

def fn_part3 {F : FTy → Type} [FloatOps F] (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  main_v53

def fn_part2 {F : FTy → Type} [FloatOps F] (main_arg7 : FVec F S256 .f32) (main_arg8 : FVec F S256 .f32) (main_arg9 : FVec F S256x256 .f32) (main_arg10 : FVec F S256 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg9
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_v48 main_v49 main_v50

def fn_part1 {F : FTy → Type} [FloatOps F] (main_arg4 : FVec F S256 .f32) (main_arg5 : FVec F S40x256 .f32) (main_arg6 : FVec F S256 .f32) (main_arg7 : FVec F S256 .f32) (main_arg8 : FVec F S256 .f32) (main_arg9 : FVec F S256x256 .f32) (main_arg10 : FVec F S256 .f32) (main_v13 : IVec S_ 1) (main_v16 : IVec S2048x256 1) : IVec S_ 1 :=
  let main_c_5 : IVec S_ 1 := constantI S_ 1 1#1
  let main_v17 : IVec S_ 1 := (fun x v => Host.reduce IntOp.andi x v reducesTo_S2048x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S40x256 .f32 := Host.absf main_arg5
  let main_cst_8 : FVec F S_ .f32 := constant S_ .f32 0x7F800000#32
  let main_v25 : FVec F S40x256 .f32 := broadcastInDim S40x256 ![] bcast_S_S40x256 main_cst_8
  let main_v26 : IVec S40x256 1 := cmpf .olt main_v24 main_v25
  let main_c_9 : IVec S_ 1 := constantI S_ 1 1#1
  let main_v27 : IVec S_ 1 := (fun x v => Host.reduce IntOp.andi x v reducesTo_S40x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x2048 .f32) (main_arg1 : FVec F S16384x40 .f32) (main_arg2 : FVec F S16384x40 .f32) (main_arg3 : FVec F S2048x256 .f32) (main_arg4 : FVec F S256 .f32) (main_arg5 : FVec F S40x256 .f32) (main_arg6 : FVec F S256 .f32) (main_arg7 : FVec F S256 .f32) (main_arg8 : FVec F S256 .f32) (main_arg9 : FVec F S256x256 .f32) (main_arg10 : FVec F S256 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S16384x40 .f32 := Host.absf main_arg1
  let main_cst_0 : FVec F S_ .f32 := constant S_ .f32 0x7F800000#32
  let main_v5 : FVec F S16384x40 .f32 := broadcastInDim S16384x40 ![] bcast_S_S16384x40 main_cst_0
  let main_v6 : IVec S16384x40 1 := cmpf .olt main_v4 main_v5
  let main_c_1 : IVec S_ 1 := constantI S_ 1 1#1
  let main_v7 : IVec S_ 1 := (fun x v => Host.reduce IntOp.andi x v reducesTo_S16384x40_S_d0_1 h_S_) main_v6 main_c_1
  let main_v8 : IVec S_ 1 := andi main_v3 main_v7
  let main_v9 : FVec F S16384x40 .f32 := Host.absf main_arg2
  let main_cst_2 : FVec F S_ .f32 := constant S_ .f32 0x7F800000#32
  let main_v10 : FVec F S16384x40 .f32 := broadcastInDim S16384x40 ![] bcast_S_S16384x40 main_cst_2
  let main_v11 : IVec S16384x40 1 := cmpf .olt main_v9 main_v10
  let main_c_3 : IVec S_ 1 := constantI S_ 1 1#1
  let main_v12 : IVec S_ 1 := (fun x v => Host.reduce IntOp.andi x v reducesTo_S16384x40_S_d0_1 h_S_) main_v11 main_c_3
  let main_v13 : IVec S_ 1 := andi main_v8 main_v12
  let main_v14 : FVec F S2048x256 .f32 := Host.absf main_arg3
  let main_cst_4 : FVec F S_ .f32 := constant S_ .f32 0x7F800000#32
  let main_v15 : FVec F S2048x256 .f32 := broadcastInDim S2048x256 ![] bcast_S_S2048x256 main_cst_4
  let main_v16 : IVec S2048x256 1 := cmpf .olt main_v14 main_v15
  fn_part1 (F := F) main_arg4 main_arg5 main_arg6 main_arg7 main_arg8 main_arg9 main_arg10 main_v13 main_v16
-- ==== Kernel.lean ====
abbrev S16384x2048 : Shape := ⟨2, ![16384, 2048]⟩
abbrev S16384x40 : Shape := ⟨2, ![16384, 40]⟩
abbrev S2048x256 : Shape := ⟨2, ![2048, 256]⟩
abbrev S256 : Shape := ⟨1, ![256]⟩
abbrev S40x256 : Shape := ⟨2, ![40, 256]⟩
abbrev S256x256 : Shape := ⟨2, ![256, 256]⟩
abbrev S16384x256 : Shape := ⟨2, ![16384, 256]⟩
abbrev S1x256 : Shape := ⟨2, ![1, 256]⟩
abbrev S_ : Shape := ⟨0, ![]⟩
abbrev S128x128 : Shape := ⟨2, ![128, 128]⟩
abbrev S1024x2048 : Shape := ⟨2, ![1024, 2048]⟩
abbrev S1024x256 : Shape := ⟨2, ![1024, 256]⟩
abbrev S8x128 : Shape := ⟨2, ![8, 128]⟩
abbrev S1024 : Shape := ⟨1, ![1024]⟩
abbrev S1024x1 : Shape := ⟨2, ![1024, 1]⟩
abbrev S1 : Shape := ⟨1, ![1]⟩

abbrev nBuf : Space → Nat
  | .hbm => 92
  | .vmem => 18
  | .smem => 0
  | _ => 0

abbrev bufTy : (tb : Table) → Fin (tcTables nBuf tb) → BufTy
  | .hbm, ⟨0, _⟩ => ⟨S16384x2048, .f32⟩
  | .hbm, ⟨1, _⟩ => ⟨S16384x40, .f32⟩
  | .hbm, ⟨2, _⟩ => ⟨S16384x40, .f32⟩
  | .hbm, ⟨3, _⟩ => ⟨S2048x256, .f32⟩
  | .hbm, ⟨4, _⟩ => ⟨S256, .f32⟩
  | .hbm, ⟨5, _⟩ => ⟨S40x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S16384x256, .f32⟩
  | .hbm, ⟨12, _⟩ => ⟨S1x256, .f32⟩
  | .hbm, ⟨13, _⟩ => ⟨S16384x256, .f32⟩
  | .hbm, ⟨14, _⟩ => ⟨S16384x256, .f32⟩
  | .hbm, ⟨15, _⟩ => ⟨S_, .f32⟩
  | .hbm, ⟨16, _⟩ => ⟨S256, .f32⟩
  | .hbm, ⟨17, _⟩ => ⟨S_, .f32⟩
  | .hbm, ⟨18, _⟩ => ⟨S256, .f32⟩
  | .hbm, ⟨19, _⟩ => ⟨S256, .f32⟩
  | .hbm, ⟨20, _⟩ => ⟨S1x256, .f32⟩
  | .hbm, ⟨21, _⟩ => ⟨S16384x256, .f32⟩
  | .hbm, ⟨22, _⟩ => ⟨S16384x256, .f32⟩
  | .hbm, ⟨23, _⟩ => ⟨S16384x256, .f32⟩
  | .hbm, ⟨24, _⟩ => ⟨S_, .f32⟩
  | .hbm, ⟨25, _⟩ => ⟨S256, .f32⟩
  | .hbm, ⟨26, _⟩ => ⟨S_, .f32⟩
  | .hbm, ⟨27, _⟩ => ⟨S256, .f32⟩
  | .hbm, ⟨28, _⟩ => ⟨S256, .f32⟩
  | .hbm, ⟨29, _⟩ => ⟨S1x256, .f32⟩
  | .hbm, ⟨30, _⟩ => ⟨S16384x256, .f32⟩
  | .hbm, ⟨31, _⟩ => ⟨S16384x256, .f32⟩
  | .hbm, ⟨32, _⟩ => ⟨S_, .f32⟩
  | .hbm, ⟨33, _⟩ => ⟨S256, .f32⟩
  | .hbm, ⟨34, _⟩ => ⟨S256, .f32⟩
  | .hbm, ⟨35, _⟩ => ⟨S256, .f32⟩
  | .hbm, ⟨36, _⟩ => ⟨S1x256, .f32⟩
  | .hbm, ⟨37, _⟩ => ⟨S16384x256, .f32⟩
  | .hbm, ⟨38, _⟩ => ⟨S16384x256, .f32⟩
  | .hbm, ⟨39, _⟩ => ⟨S1x256, .f32⟩
  | .hbm, ⟨40, _⟩ => ⟨S16384x256, .f32⟩
  | .hbm, ⟨41, _⟩ => ⟨S16384x256, .f32⟩
  | .hbm, ⟨42, _⟩ => ⟨S1x256, .f32⟩
  | .hbm, ⟨43, _⟩ => ⟨S16384x256, .f32⟩
  | .hbm, ⟨44, _⟩ => ⟨S16384x256, .f32⟩
  | .hbm, ⟨45, _⟩ => ⟨S_, .f32⟩
  | .hbm, ⟨46, _⟩ => ⟨S16384x256, .f32⟩
  | .hbm, ⟨47, _⟩ => ⟨S16384x256, .f32⟩
  | .hbm, ⟨48, _⟩ => ⟨S16384x256, .f32⟩
  | .hbm, ⟨49, _⟩ => ⟨S1x256, .f32⟩
  | .hbm, ⟨50, _⟩ => ⟨S16384x256, .f32⟩
  | .hbm, ⟨51, _⟩ => ⟨S16384x256, .f32⟩
  | .hbm, ⟨52, _⟩ => ⟨S_, .f32⟩
  | .hbm, ⟨53, _⟩ => ⟨S256, .f32⟩
  | .hbm, ⟨54, _⟩ => ⟨S_, .f32⟩
  | .hbm, ⟨55, _⟩ => ⟨S256, .f32⟩
  | .hbm, ⟨56, _⟩ => ⟨S256, .f32⟩
  | .hbm, ⟨57, _⟩ => ⟨S1x256, .f32⟩
  | .hbm, ⟨58, _⟩ => ⟨S16384x256, .f32⟩
  | .hbm, ⟨59, _⟩ => ⟨S16384x256, .f32⟩
  | .hbm, ⟨60, _⟩ => ⟨S16384x256, .f32⟩
  | .hbm, ⟨61, _⟩ => ⟨S_, .f32⟩
  | .hbm, ⟨62, _⟩ => ⟨S256, .f32⟩
  | .hbm, ⟨63, _⟩ => ⟨S_, .f32⟩
  | .hbm, ⟨64, _⟩ => ⟨S256, .f32⟩
  | .hbm, ⟨65, _⟩ => ⟨S256, .f32⟩
  | .hbm, ⟨66, _⟩ => ⟨S1x256, .f32⟩
  | .hbm, ⟨67, _⟩ => ⟨S16384x256, .f32⟩
  | .hbm, ⟨68, _⟩ => ⟨S16384x256, .f32⟩
  | .hbm, ⟨69, _⟩ => ⟨S_, .f32⟩
  | .hbm, ⟨70, _⟩ => ⟨S256, .f32⟩
  | .hbm, ⟨71, _⟩ => ⟨S256, .f32⟩
  | .hbm, ⟨72, _⟩ => ⟨S256, .f32⟩
  | .hbm, ⟨73, _⟩ => ⟨S1x256, .f32⟩
  | .hbm, ⟨74, _⟩ => ⟨S16384x256, .f32⟩
  | .hbm, ⟨75, _⟩ => ⟨S16384x256, .f32⟩
  | .hbm, ⟨76, _⟩ => ⟨S1x256, .f32⟩
  | .hbm, ⟨77, _⟩ => ⟨S16384x256, .f32⟩
  | .hbm, ⟨78, _⟩ => ⟨S16384x256, .f32⟩
  | .hbm, ⟨79, _⟩ => ⟨S1x256, .f32⟩
  | .hbm, ⟨80, _⟩ => ⟨S16384x256, .f32⟩
  | .hbm, ⟨81, _⟩ => ⟨S16384x256, .f32⟩
  | .hbm, ⟨82, _⟩ => ⟨S_, .f32⟩
  | .hbm, ⟨83, _⟩ => ⟨S16384x256, .f32⟩
  | .hbm, ⟨84, _⟩ => ⟨S16384x256, .f32⟩
  | .hbm, ⟨85, _⟩ => ⟨S16384x256, .f32⟩
  | .hbm, ⟨86, _⟩ => ⟨S16384x256, .f32⟩
  | .hbm, ⟨87, _⟩ => ⟨S16384x256, .f32⟩
  | .hbm, ⟨88, _⟩ => ⟨S128x128, .i32⟩
  | .hbm, ⟨89, _⟩ => ⟨S_, .i32⟩
  | .hbm, ⟨90, _⟩ => ⟨S_, .i32⟩
  | .hbm, ⟨91, _⟩ => ⟨S1, .i32⟩
  | .local _ .vmem, ⟨0, _⟩ => ⟨S1024x2048, .f32⟩
  | .local _ .vmem, ⟨1, _⟩ => ⟨S1024x2048, .f32⟩
  | .local _ .vmem, ⟨2, _⟩ => ⟨S2048x256, .f32⟩
  | .local _ .vmem, ⟨3, _⟩ => ⟨S256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S256x256, .f32⟩
  | .local _ .vmem, ⟨9, _⟩ => ⟨S256, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x256, .f32⟩
  | .local _ .vmem, ⟨15, _⟩ => ⟨S1024x256, .f32⟩
  | .local _ .vmem, ⟨16, _⟩ => ⟨S8x128, .i32⟩
  | .local _ .vmem, ⟨17, _⟩ => ⟨S8x128, .i32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_cst_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_8 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_call1_cst : Ref sig .tc := ⟨.hbm, 82, rfl⟩
abbrev main_call1_v0 : Ref sig .tc := ⟨.hbm, 83, rfl⟩
abbrev main_v59 : Ref sig .tc := ⟨.hbm, 84, rfl⟩
abbrev main_v60_0 : Ref sig .tc := ⟨.hbm, 85, rfl⟩
abbrev main_v60_1 : Ref sig .tc := ⟨.hbm, 86, rfl⟩
abbrev main_v60_2 : Ref sig .tc := ⟨.hbm, 87, rfl⟩
abbrev main_v60_3 : Ref sig .tc := ⟨.hbm, 88, rfl⟩
abbrev main_c : Ref sig .tc := ⟨.hbm, 89, rfl⟩
abbrev main_v61 : Ref sig .tc := ⟨.hbm, 90, rfl⟩
abbrev main_v62 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x128 .i32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  reducesTo_S16384x256_S256_d0 : S16384x256.ReducesTo [0] S256
  h_S_ : 0 < S_.numel
  bcast_S_S256 : S_.BroadcastsInDim S256 (![] : Fin 0 → Fin S256.rank)
  bcast_S_S16384x256 : S_.BroadcastsInDim S16384x256 (![] : Fin 0 → Fin S16384x256.rank)
  inb_S1024x2048_S1024x2048_0_0 : ∀ a, (![0, 0] : Fin 2 → Nat) a + S1024x2048.size a ≤ S1024x2048.size a
  h_S1024x2048 : 0 < S1024x2048.numel
  inb_S2048x256_S2048x256_0_0 : ∀ a, (![0, 0] : Fin 2 → Nat) a + S2048x256.size a ≤ S2048x256.size a
  h_S2048x256 : 0 < S2048x256.numel
  inb_S256_S256_0 : ∀ a, (![0] : Fin 1 → Nat) a + S256.size a ≤ S256.size a
  h_S256 : 0 < S256.numel
  shapeCasts_S256_S1x256 : S256.ShapeCasts S1x256
  broadcasts_S1x256_S1024x256 : S1x256.Broadcasts S1024x256
  reduces_S1024x256_S1024 : S1024x256.Reduces [1] S1024
  shapeCasts_S1024_S1024x1 : S1024.ShapeCasts S1024x1
  broadcasts_S1024x1_S1024x256 : S1024x1.Broadcasts S1024x256
  inb_S256x256_S256x256_0_0 : ∀ a, (![0, 0] : Fin 2 → Nat) a + S256x256.size a ≤ S256x256.size a
  h_S256x256 : 0 < S256x256.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  natLt_1_32 : 1 < 32
  shapeCasts_S1024x1_S8x128 : S1024x1.ShapeCasts S8x128
  inb_S8x128_S8x128_0_0 : ∀ a, (![0, 0] : Fin 2 → Nat) a + S8x128.size a ≤ S8x128.size a
  h_S8x128 : 0 < S8x128.numel
  reducesTo_S128x128_S_d0_1 : S128x128.ReducesTo [0, 1] S_
  shapeCasts_S_S1 : S_.ShapeCasts S1
  dot_S16384x40_S40x256_S16384x256_1_0_0_1_n_n_wf : DotDims.WF S16384x40 S40x256 S16384x256 [1] [0] [0] [1] [] []
  dot_S1024x2048_S2048x256_S1024x256_1_0_0_1_n_n_wf : DotDims.WF S1024x2048 S2048x256 S1024x256 [1] [0] [0] [1] [] []
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .f32 = 32 ∨ (Rect.block (s := S16384x2048) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x256.size a
  hwx0_1 : ∀ i : grid0.Coords, EltTy.bits .f32 = 32 ∨ (Rect.block (s := S2048x256) S2048x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S16384x256.size a
  hwx0_3 : ∀ i : grid0.Coords, EltTy.bits .f32 = 32 ∨ (Rect.block (s := S16384x256) S1024x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S16384x256.size a
  hwx0_4 : ∀ i : grid0.Coords, EltTy.bits .f32 = 32 ∨ (Rect.block (s := S16384x256) S1024x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S16384x256.size a
  hwx0_7 : ∀ i : grid0.Coords, EltTy.bits .f32 = 32 ∨ (Rect.block (s := S16384x256) S1024x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x256.size a ≤ S16384x256.size a
  hwx0_8 : ∀ i : grid0.Coords, EltTy.bits .f32 = 32 ∨ (Rect.block (s := S16384x256) S1024x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x256.size a ≤ S16384x256.size a
  hwx0_9 : ∀ i : grid0.Coords, EltTy.bits .f32 = 32 ∨ (Rect.block (s := S16384x256) S1024x256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S8x128.size a ≤ S128x128.size a
  hwx0_10 : ∀ i : grid0.Coords, EltTy.bits .i32 = 32 ∨ (Rect.block (s := S128x128) S8x128.size (cc0_transform_10 i) (hinb0_10 i)).WholeWords (EltTy.packing .i32)

variable [Facts₀]

def dot_S16384x40_S40x256_S16384x256_1_0_0_1_n_n : DotDims S16384x40 S40x256 S16384x256 where
  lhsContracting := [1]
  rhsContracting := [0]
  lhsNonContracting := [0]
  rhsNonContracting := [1]
  lhsBatch := []
  rhsBatch := []
  wf := dot_S16384x40_S40x256_S16384x256_1_0_0_1_n_n_wf
def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2048x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1024x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v59) S1024x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v60_0) S1024x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v60_1) S1024x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v60_2) S1024x256.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v60_3) S8x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S16384x2048 : Shape := ⟨2, ![16384, 2048]⟩
abbrev S16384x40 : Shape := ⟨2, ![16384, 40]⟩
abbrev S2048x256 : Shape := ⟨2, ![2048, 256]⟩
abbrev S256 : Shape := ⟨1, ![256]⟩
abbrev S40x256 : Shape := ⟨2, ![40, 256]⟩
abbrev S256x256 : Shape := ⟨2, ![256, 256]⟩
abbrev S16384x256 : Shape := ⟨2, ![16384, 256]⟩
abbrev S1x256 : Shape := ⟨2, ![1, 256]⟩
abbrev S_ : Shape := ⟨0, ![]⟩
abbrev S16384 : Shape := ⟨1, ![16384]⟩
abbrev S16384x1 : Shape := ⟨2, ![16384, 1]⟩
abbrev S1 : Shape := ⟨1, ![1]⟩

abbrev nBuf : Space → Nat
  | .hbm => 152
  | .vmem => 0
  | .smem => 0
  | _ => 0

abbrev hbmTy0_0 (i : Nat) : BufTy := match i % 128 with
  | 0 => ⟨S16384x2048, .f32⟩
  | 1 => ⟨S16384x40, .f32⟩
  | 2 => ⟨S16384x40, .f32⟩
  | 3 => ⟨S2048x256, .f32⟩
  | 4 => ⟨S256, .f32⟩
  | 5 => ⟨S40x256, .f32⟩
  | 6 => ⟨S256, .f32⟩
  | 7 => ⟨S256, .f32⟩
  | 8 => ⟨S256, .f32⟩
  | 9 => ⟨S256x256, .f32⟩
  | 10 => ⟨S256, .f32⟩
  | 11 => ⟨S16384x256, .f32⟩
  | 12 => ⟨S1x256, .f32⟩
  | 13 => ⟨S16384x256, .f32⟩
  | 14 => ⟨S16384x256, .f32⟩
  | 15 => ⟨S16384x256, .f32⟩
  | 16 => ⟨S1x256, .f32⟩
  | 17 => ⟨S16384x256, .f32⟩
  | 18 => ⟨S16384x256, .f32⟩
  | 19 => ⟨S_, .f32⟩
  | 20 => ⟨S256, .f32⟩
  | 21 => ⟨S_, .f32⟩
  | 22 => ⟨S256, .f32⟩
  | 23 => ⟨S256, .f32⟩
  | 24 => ⟨S1x256, .f32⟩
  | 25 => ⟨S16384x256, .f32⟩
  | 26 => ⟨S16384x256, .f32⟩
  | 27 => ⟨S16384x256, .f32⟩
  | 28 => ⟨S_, .f32⟩
  | 29 => ⟨S256, .f32⟩
  | 30 => ⟨S_, .f32⟩
  | 31 => ⟨S256, .f32⟩
  | 32 => ⟨S256, .f32⟩
  | 33 => ⟨S1x256, .f32⟩
  | 34 => ⟨S16384x256, .f32⟩
  | 35 => ⟨S16384x256, .f32⟩
  | 36 => ⟨S_, .f32⟩
  | 37 => ⟨S256, .f32⟩
  | 38 => ⟨S256, .f32⟩
  | 39 => ⟨S256, .f32⟩
  | 40 => ⟨S1x256, .f32⟩
  | 41 => ⟨S16384x256, .f32⟩
  | 42 => ⟨S16384x256, .f32⟩
  | 43 => ⟨S1x256, .f32⟩
  | 44 => ⟨S16384x256, .f32⟩
  | 45 => ⟨S16384x256, .f32⟩
  | 46 => ⟨S1x256, .f32⟩
  | 47 => ⟨S16384x256, .f32⟩
  | 48 => ⟨S16384x256, .f32⟩
  | 49 => ⟨S_, .f32⟩
  | 50 => ⟨S16384x256, .f32⟩
  | 51 => ⟨S16384x256, .f32⟩
  | 52 => ⟨S16384x256, .f32⟩
  | 53 => ⟨S1x256, .f32⟩
  | 54 => ⟨S16384x256, .f32⟩
  | 55 => ⟨S16384x256, .f32⟩
  | 56 => ⟨S16384x256, .f32⟩
  | 57 => ⟨S1x256, .f32⟩
  | 58 => ⟨S16384x256, .f32⟩
  | 59 => ⟨S16384x256, .f32⟩
  | 60 => ⟨S_, .f32⟩
  | 61 => ⟨S256, .f32⟩
  | 62 => ⟨S_, .f32⟩
  | 63 => ⟨S256, .f32⟩
  | 64 => ⟨S256, .f32⟩
  | 65 => ⟨S1x256, .f32⟩
  | 66 => ⟨S16384x256, .f32⟩
  | 67 => ⟨S16384x256, .f32⟩
  | 68 => ⟨S16384x256, .f32⟩
  | 69 => ⟨S_, .f32⟩
  | 70 => ⟨S256, .f32⟩
  | 71 => ⟨S_, .f32⟩
  | 72 => ⟨S256, .f32⟩
  | 73 => ⟨S256, .f32⟩
  | 74 => ⟨S1x256, .f32⟩
  | 75 => ⟨S16384x256, .f32⟩
  | 76 => ⟨S16384x256, .f32⟩
  | 77 => ⟨S_, .f32⟩
  | 78 => ⟨S256, .f32⟩
  | 79 => ⟨S256, .f32⟩
  | 80 => ⟨S256, .f32⟩
  | 81 => ⟨S1x256, .f32⟩
  | 82 => ⟨S16384x256, .f32⟩
  | 83 => ⟨S16384x256, .f32⟩
  | 84 => ⟨S1x256, .f32⟩
  | 85 => ⟨S16384x256, .f32⟩
  | 86 => ⟨S16384x256, .f32⟩
  | 87 => ⟨S1x256, .f32⟩
  | 88 => ⟨S16384x256, .f32⟩
  | 89 => ⟨S16384x256, .f32⟩
  | 90 => ⟨S_, .f32⟩
  | 91 => ⟨S16384x256, .f32⟩
  | 92 => ⟨S16384x256, .f32⟩
  | 93 => ⟨S16384x256, .f32⟩
  | 94 => ⟨S1x256, .f32⟩
  | 95 => ⟨S16384x256, .f32⟩
  | 96 => ⟨S16384x256, .f32⟩
  | 97 => ⟨S16384x256, .f32⟩
  | 98 => ⟨S_, .f32⟩
  | 99 => ⟨S16384, .f32⟩
  | 100 => ⟨S16384x1, .f32⟩
  | 101 => ⟨S16384x1, .f32⟩
  | 102 => ⟨S16384x256, .f32⟩
  | 103 => ⟨S16384x256, .f32⟩
  | 104 => ⟨S16384x256, .f32⟩
  | 105 => ⟨S_, .f32⟩
  | 106 => ⟨S16384, .f32⟩
  | 107 => ⟨S16384x1, .f32⟩
  | 108 => ⟨S16384x1, .f32⟩
  | 109 => ⟨S16384x256, .f32⟩
  | 110 => ⟨S16384x256, .f32⟩
  | 111 => ⟨S16384x256, .f32⟩
  | 112 => ⟨S_, .f32⟩
  | 113 => ⟨S16384, .f32⟩
  | 114 => ⟨S16384x1, .f32⟩
  | 115 => ⟨S16384x1, .f32⟩
  | 116 => ⟨S16384x256, .f32⟩
  | 117 => ⟨S16384x256, .f32⟩
  | 118 => ⟨S16384x256, .f32⟩
  | 119 => ⟨S_, .f32⟩
  | 120 => ⟨S16384x256, .f32⟩
  | 121 => ⟨S16384x256, .f32⟩
  | 122 => ⟨S16384x256, .f32⟩
  | 123 => ⟨S_, .f32⟩
  | 124 => ⟨S16384x256, .f32⟩
  | 125 => ⟨S16384x256, .f32⟩
  | 126 => ⟨S_, .f32⟩
  | 127 => ⟨S16384, .f32⟩
  | _ => ⟨S16384x2048, .f32⟩

abbrev hbmTy0_1 (i : Nat) : BufTy := match i % 128 with
  | 0 => ⟨S_, .f32⟩
  | 1 => ⟨S16384, .f32⟩
  | 2 => ⟨S16384, .f32⟩
  | 3 => ⟨S16384x256, .f32⟩
  | 4 => ⟨S_, .f32⟩
  | 5 => ⟨S16384x256, .f32⟩
  | 6 => ⟨S16384x256, .f32⟩
  | 7 => ⟨S16384x256, .f32⟩
  | 8 => ⟨S_, .f32⟩
  | 9 => ⟨S16384x256, .f32⟩
  | 10 => ⟨S16384x256, .f32⟩
  | 11 => ⟨S_, .f32⟩
  | 12 => ⟨S16384, .f32⟩
  | 13 => ⟨S_, .f32⟩
  | 14 => ⟨S16384, .f32⟩
  | 15 => ⟨S16384, .f32⟩
  | 16 => ⟨S16384, .f32⟩
  | 17 => ⟨S_, .f32⟩
  | 18 => ⟨S16384, .f32⟩
  | 19 => ⟨S16384, .i1⟩
  | 20 => ⟨S16384, .i32⟩
  | 21 => ⟨S_, .i32⟩
  | 22 => ⟨S_, .i32⟩
  | 23 => ⟨S1, .i32⟩
  | _ => ⟨S16384x2048, .f32⟩

abbrev hbmTy (i : Nat) : BufTy := match i / 128 with
  | 0 => hbmTy0_0 i
  | 1 => hbmTy0_1 i
  | _ => ⟨S16384x2048, .f32⟩

abbrev bufTy : (tb : Table) → Fin (tcTables nBuf tb) → BufTy
  | .hbm, ⟨i, _⟩ => hbmTy i
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_call0_cst : Ref sig .tc := ⟨.hbm, 49, rfl⟩
abbrev main_call0_v0 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_4 : Ref sig .tc := ⟨.hbm, 60, rfl⟩
abbrev main_v42 : Ref sig .tc := ⟨.hbm, 61, rfl⟩
abbrev main_cst_5 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_6 : Ref sig .tc := ⟨.hbm, 69, rfl⟩
abbrev main_v49 : Ref sig .tc := ⟨.hbm, 70, rfl⟩
abbrev main_cst_7 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_8 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_call1_cst : Ref sig .tc := ⟨.hbm, 90, rfl⟩
abbrev main_call1_v0 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_call2_v0 : Ref sig .tc := ⟨.hbm, 97, rfl⟩
abbrev main_call2_cst : Ref sig .tc := ⟨.hbm, 98, rfl⟩
abbrev main_call2_v1 : Ref sig .tc := ⟨.hbm, 99, rfl⟩
abbrev main_call2_v2 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_call3_v0 : Ref sig .tc := ⟨.hbm, 104, rfl⟩
abbrev main_call3_cst : Ref sig .tc := ⟨.hbm, 105, rfl⟩
abbrev main_call3_v1 : Ref sig .tc := ⟨.hbm, 106, rfl⟩
abbrev main_call3_v2 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_call4_v0 : Ref sig .tc := ⟨.hbm, 111, rfl⟩
abbrev main_call4_cst : Ref sig .tc := ⟨.hbm, 112, rfl⟩
abbrev main_call4_v1 : Ref sig .tc := ⟨.hbm, 113, rfl⟩
abbrev main_call4_v2 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_9 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_10 : Ref sig .tc := ⟨.hbm, 123, rfl⟩
abbrev main_v85 : Ref sig .tc := ⟨.hbm, 124, rfl⟩
abbrev main_v86 : Ref sig .tc := ⟨.hbm, 125, rfl⟩
abbrev main_cst_11 : Ref sig .tc := ⟨.hbm, 126, rfl⟩
abbrev main_v87 : Ref sig .tc := ⟨.hbm, 127, rfl⟩
abbrev main_cst_12 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_cst_13 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_cst_14 : Ref sig .tc := ⟨.hbm, 136, rfl⟩
abbrev main_v94 : Ref sig .tc := ⟨.hbm, 137, rfl⟩
abbrev main_v95 : Ref sig .tc := ⟨.hbm, 138, rfl⟩
abbrev main_cst_15 : Ref sig .tc := ⟨.hbm, 139, rfl⟩
abbrev main_v96 : Ref sig .tc := ⟨.hbm, 140, rfl⟩
abbrev main_cst_16 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_cst_17 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_c : Ref sig .tc := ⟨.hbm, 149, rfl⟩
abbrev main_v103 : Ref sig .tc := ⟨.hbm, 150, rfl⟩
abbrev main_v104 : Ref sig .tc := ⟨.hbm, 151, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  reducesTo_S16384x256_S256_d0 : S16384x256.ReducesTo [0] S256
  h_S_ : 0 < S_.numel
  bcast_S_S256 : S_.BroadcastsInDim S256 (![] : Fin 0 → Fin S256.rank)
  bcast_S_S16384x256 : S_.BroadcastsInDim S16384x256 (![] : Fin 0 → Fin S16384x256.rank)
  reducesTo_S16384x256_S16384_d1 : S16384x256.ReducesTo [1] S16384
  bcast_S16384_S16384x1_0 : S16384.BroadcastsInDim S16384x1 (![0] : Fin 1 → Fin S16384x1.rank)
  bcast_S16384x1_S16384x256_0_1 : S16384x1.BroadcastsInDim S16384x256 (![0, 1] : Fin 2 → Fin S16384x256.rank)
  bcast_S_S16384 : S_.BroadcastsInDim S16384 (![] : Fin 0 → Fin S16384.rank)
  natLt_1_32 : 1 < 32
  reducesTo_S16384_S_d0 : S16384.ReducesTo [0] S_
  shapeCasts_S_S1 : S_.ShapeCasts S1
  dot_S16384x2048_S2048x256_S16384x256_1_0_0_1_n_n_wf : DotDims.WF S16384x2048 S2048x256 S16384x256 [1] [0] [0] [1] [] []
  dot_S16384x40_S40x256_S16384x256_1_0_0_1_n_n_wf : DotDims.WF S16384x40 S40x256 S16384x256 [1] [0] [0] [1] [] []
  dot_S16384x256_S256x256_S16384x256_1_0_0_1_n_n_wf : DotDims.WF S16384x256 S256x256 S16384x256 [1] [0] [0] [1] [] []

variable [Facts₀]

def dot_S16384x2048_S2048x256_S16384x256_1_0_0_1_n_n : DotDims S16384x2048 S2048x256 S16384x256 where
  lhsContracting := [1]
  rhsContracting := [0]
  lhsNonContracting := [0]
  rhsNonContracting := [1]
  lhsBatch := []
  rhsBatch := []
  wf := dot_S16384x2048_S2048x256_S16384x256_1_0_0_1_n_n_wf
def dot_S16384x40_S40x256_S16384x256_1_0_0_1_n_n : DotDims S16384x40 S40x256 S16384x256 where
  lhsContracting := [1]
  rhsContracting := [0]
  lhsNonContracting := [0]
  rhsNonContracting := [1]
  lhsBatch := []
  rhsBatch := []
  wf := dot_S16384x40_S40x256_S16384x256_1_0_0_1_n_n_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf

class Facts : Prop extends Facts₀ where

variable [Facts]
-- ==== Proof.LibPlainDot.lean ====
/-
  A plain matrix product read at an index, at the ideal values.

  For the plain dimension numbers of an `[M, K]` by `[K, N]` product (contract the left operand's second axis with the
  right operand's first; no batch axis) the contraction index has one coordinate, so the sum over it is a sum over
  `k : Fin K`, and the operand indices at the result index `(p, q)` are `(p, k)` and `(k, q)`. Hence, on the extended
  reals, a matrix-unit product accumulated into the zero splat and a host `dot_general` are ONE function of their
  operands, `rowsTimes`: entry `(p, q)` is `∑ k, l (p, k) * r (k, q)`.

  `rowsTimes` of a block of rows is that block of rows of `rowsTimes` (`rowsTimes_rows`): an entry depends on its own
  row of the left operand only.
-/
import Idealize.ShloMosaic.PureOps.Ideal.Laws
import Idealize.ShloMosaic.Lib.ValueIdx

noncomputable section

namespace Cert.LibPlainDot

open Idealize.ShloMosaic Idealize.ShloMosaic.ValueIdx

/-- The product of an `[M, K]` array of extended reals with a `[K, N]` one: entry `(p, q)` is the sum over `k` of
    `l (p, k) * r (k, q)`. -/
def rowsTimes {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (⟨(j 0).val, idx2_lt0 j⟩ : Fin M) k) * r (ix2 k (⟨(j 1).val, idx2_lt1 j⟩ : Fin N))

theorem rowsTimes_apply {M K N : ℕ} (l : (⟨2, ![M, K]⟩ : Shape).Idx → EReal) (r : (⟨2, ![K, N]⟩ : Shape).Idx → EReal)
    (p : Fin M) (q : Fin N) : rowsTimes l r (ix2 p q) = ∑ k : Fin K, l (ix2 p k) * r (ix2 k q) := rfl

/-- The plain dimension numbers contract one axis, of extent `K`. -/
theorem plain_contr_rank (M K N : ℕ) : (DotDims.plain M K N).contr.rank = 1 := rfl
theorem plain_contr_size (M K N : ℕ) : (DotDims.plain M K N).contr.size ⟨0, by rw [plain_contr_rank]; exact Nat.one_pos⟩ = K := rfl

/-- The operands' indices at result index `j` and contraction index `q`: rows of the left operand follow the result's
    row, columns of the right operand the result's column, and the contracted axes the contraction coordinate. -/
theorem plain_lhs0 (M K N : ℕ) (j : (⟨2, ![M, N]⟩ : Shape).Idx) (q : (DotDims.plain M K N).contr.Idx) :
    ((DotDims.plain M K N).lhsIdx j q 0).val = (j 0).val := rfl
theorem plain_lhs1 (M K N : ℕ) (j : (⟨2, ![M, N]⟩ : Shape).Idx) (q : (DotDims.plain M K N).contr.Idx) :
    ((DotDims.plain M K N).lhsIdx j q 1).val = (q ⟨0, by rw [plain_contr_rank]; exact Nat.one_pos⟩).val := rfl
theorem plain_rhs0 (M K N : ℕ) (j : (⟨2, ![M, N]⟩ : Shape).Idx) (q : (DotDims.plain M K N).contr.Idx) :
    ((DotDims.plain M K N).rhsIdx j q 0).val = (q ⟨0, by rw [plain_contr_rank]; exact Nat.one_pos⟩).val := rfl
theorem plain_rhs1 (M K N : ℕ) (j : (⟨2, ![M, N]⟩ : Shape).Idx) (q : (DotDims.plain M K N).contr.Idx) :
    ((DotDims.plain M K N).rhsIdx j q 1).val = (j 1).val := rfl

/-- The sum over the contraction index of the operands' products is `rowsTimes`. -/
theorem plain_sum {M K N : ℕ} (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = rowsTimes l r j := by
  unfold rowsTimes
  rw [← Equiv.sum_comp (contrEquiv1 (DotDims.plain M K N) K (plain_contr_rank M K N) (plain_contr_size M K N)).symm]
  refine Finset.sum_congr rfl fun k _ => ?_
  have hk := contrEquiv1_symm_val (DotDims.plain M K N) K (plain_contr_rank M K N) (plain_contr_size M K N) k
  have el : (DotDims.plain M K N).lhsIdx j ((contrEquiv1 (DotDims.plain M K N) K (plain_contr_rank M K N) (plain_contr_size M K N)).symm k)
      = ix2 (⟨(j 0).val, idx2_lt0 j⟩ : Fin M) k := funext fun a => Fin.ext (by
    match a with
    | ⟨0, _⟩ => exact plain_lhs0 M K N j _
    | ⟨1, _⟩ => exact (plain_lhs1 M K N j _).trans hk)
  have er : (DotDims.plain M K N).rhsIdx j ((contrEquiv1 (DotDims.plain M K N) K (plain_contr_rank M K N) (plain_contr_size M K N)).symm k)
      = ix2 k (⟨(j 1).val, idx2_lt1 j⟩ : Fin N) := funext fun a => Fin.ext (by
    match a with
    | ⟨0, _⟩ => exact (plain_rhs0 M K N j _).trans hk
    | ⟨1, _⟩ => exact plain_rhs1 M K N j _)
  rw [el, er]

/-- A matrix-unit product accumulated into the zero splat, over the plain dimension numbers, is `rowsTimes`. -/
theorem matmul_zero_plain {M K N : ℕ} {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = rowsTimes l r :=
  funext fun j => (Ideal.matmul_constant_zero_apply (DotDims.plain M K N) prec l r j).trans (plain_sum l r j)

/-- The host's `dot_general` over the plain dimension numbers is `rowsTimes`, whatever the schedule. -/
theorem dotGeneral_plain {M K N : ℕ} {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = rowsTimes l r :=
  funext fun j => (Ideal.dotGeneral_apply (DotDims.plain M K N) prec sched l r j).trans (plain_sum l r j)

/-- Rows `o, o + 1, …, o + R - 1` of a product are the product of those rows of the left operand: if `lb` is that
    block of rows of `l`, then `rowsTimes lb r` is the same block of rows of `rowsTimes l r`. -/
theorem rowsTimes_rows {M R K N : ℕ} (o : ℕ) (l : (⟨2, ![M, K]⟩ : Shape).Idx → EReal) (lb : (⟨2, ![R, K]⟩ : Shape).Idx → EReal)
    (r : (⟨2, ![K, N]⟩ : Shape).Idx → EReal)
    (hl : ∀ (y : Fin R) (k : Fin K) (h : o + y.val < M), lb (ix2 y k) = l (ix2 (⟨o + y.val, h⟩ : Fin M) k))
    (y : (⟨2, ![R, N]⟩ : Shape).Idx) (i : (⟨2, ![M, N]⟩ : Shape).Idx) (h0 : (i 0).val = o + (y 0).val) (h1 : (i 1).val = (y 1).val) :
    rowsTimes lb r y = rowsTimes l r i := by
  unfold rowsTimes
  refine Finset.sum_congr rfl fun k _ => ?_
  have hM : o + (y 0).val < M := h0 ▸ idx2_lt0 i
  rw [hl ⟨(y 0).val, idx2_lt0 y⟩ k hM]
  have e0 : (⟨o + (y 0).val, hM⟩ : Fin M) = ⟨(i 0).val, idx2_lt0 i⟩ := Fin.ext h0.symm
  have e1 : (⟨(y 1).val, idx2_lt1 y⟩ : Fin N) = ⟨(i 1).val, idx2_lt1 i⟩ := Fin.ext h1.symm
  rw [e0, e1]

end Cert.LibPlainDot

end
-- ==== Proof.LibRowBias.lean ====
/-
  Adding one row to every row of an array, with or without a floor, on the extended reals.

  `rowBias a b` adds the single row `b` (an `[1, N]` array) to every row of the `[M, N]` array `a`;
  `rowBiasFloor z a b` then takes the maximum with `z`, entry by entry. An entry of either depends on the same entry of
  `a` and on its column of `b` only, so a block of rows of the result is the result of that block of rows of `a`
  (`rowBias_rows`, `rowBiasFloor_rows`).
-/
import Idealize.ShloMosaic.PureOps.Ideal
import Idealize.ShloMosaic.Lib.ValueIdx

noncomputable section

namespace Cert.LibRowBias

open Idealize.ShloMosaic Idealize.ShloMosaic.ValueIdx

/-- Every row of `a` plus the one row `b`. -/
def rowBias {M N : ℕ} (a : (⟨2, ![M, N]⟩ : Shape).Idx → EReal) (b : (⟨2, ![1, N]⟩ : Shape).Idx → EReal) :
    (⟨2, ![M, N]⟩ : Shape).Idx → EReal :=
  fun i => a i + b (ix2 (0 : Fin 1) (⟨(i 1).val, idx2_lt1 i⟩ : Fin N))

/-- Every row of `a` plus the one row `b`, floored at `z`. -/
def rowBiasFloor {M N : ℕ} (z : EReal) (a : (⟨2, ![M, N]⟩ : Shape).Idx → EReal) (b : (⟨2, ![1, N]⟩ : Shape).Idx → EReal) :
    (⟨2, ![M, N]⟩ : Shape).Idx → EReal :=
  fun i => max (rowBias a b i) z

theorem rowBias_apply {M N : ℕ} (a : (⟨2, ![M, N]⟩ : Shape).Idx → EReal) (b : (⟨2, ![1, N]⟩ : Shape).Idx → EReal)
    (p : Fin M) (q : Fin N) : rowBias a b (ix2 p q) = a (ix2 p q) + b (ix2 (0 : Fin 1) q) := rfl

theorem rowBiasFloor_apply {M N : ℕ} (z : EReal) (a : (⟨2, ![M, N]⟩ : Shape).Idx → EReal) (b : (⟨2, ![1, N]⟩ : Shape).Idx → EReal)
    (p : Fin M) (q : Fin N) : rowBiasFloor z a b (ix2 p q) = max (a (ix2 p q) + b (ix2 (0 : Fin 1) q)) z := rfl

/-- Rows `o, …, o + R - 1` of `rowBias a b` are `rowBias` of those rows of `a`. -/
theorem rowBias_rows {M R N : ℕ} (o : ℕ) (a : (⟨2, ![M, N]⟩ : Shape).Idx → EReal) (ab : (⟨2, ![R, N]⟩ : Shape).Idx → EReal)
    (b : (⟨2, ![1, N]⟩ : Shape).Idx → EReal)
    (ha : ∀ (p : Fin R) (q : Fin N) (h : o + p.val < M), ab (ix2 p q) = a (ix2 (⟨o + p.val, h⟩ : Fin M) q))
    (y : (⟨2, ![R, N]⟩ : Shape).Idx) (i : (⟨2, ![M, N]⟩ : Shape).Idx) (h0 : (i 0).val = o + (y 0).val) (h1 : (i 1).val = (y 1).val) :
    rowBias ab b y = rowBias a b i := by
  have hM : o + (y 0).val < M := h0 ▸ idx2_lt0 i
  have ey : y = ix2 (⟨(y 0).val, idx2_lt0 y⟩ : Fin R) (⟨(y 1).val, idx2_lt1 y⟩ : Fin N) := by
    funext d; match d with | ⟨0, _⟩ => rfl | ⟨1, _⟩ => rfl
  have ei : i = ix2 (⟨o + (y 0).val, hM⟩ : Fin M) (⟨(y 1).val, idx2_lt1 y⟩ : Fin N) := by
    funext d; match d with | ⟨0, _⟩ => exact Fin.ext h0 | ⟨1, _⟩ => exact Fin.ext h1
  have hab : ab y = a i :=
    (congrArg ab ey).trans ((ha ⟨(y 0).val, idx2_lt0 y⟩ ⟨(y 1).val, idx2_lt1 y⟩ hM).trans (congrArg a ei.symm))
  have hq : (⟨(y 1).val, idx2_lt1 y⟩ : Fin N) = ⟨(i 1).val, idx2_lt1 i⟩ := Fin.ext h1.symm
  unfold rowBias
  rw [hab, hq]

/-- The same with the floor. -/
theorem rowBiasFloor_rows {M R N : ℕ} (z : EReal) (o : ℕ) (a : (⟨2, ![M, N]⟩ : Shape).Idx → EReal) (ab : (⟨2, ![R, N]⟩ : Shape).Idx → EReal)
    (b : (⟨2, ![1, N]⟩ : Shape).Idx → EReal)
    (ha : ∀ (p : Fin R) (q : Fin N) (h : o + p.val < M), ab (ix2 p q) = a (ix2 (⟨o + p.val, h⟩ : Fin M) q))
    (y : (⟨2, ![R, N]⟩ : Shape).Idx) (i : (⟨2, ![M, N]⟩ : Shape).Idx) (h0 : (i 0).val = o + (y 0).val) (h1 : (i 1).val = (y 1).val) :
    rowBiasFloor z ab b y = rowBiasFloor z a b i := by
  unfold rowBiasFloor
  rw [rowBias_rows o a ab b ha y i h0 h1]

end Cert.LibRowBias

end
-- ==== Proof.LibUnitRows.lean ====
/-
  Unit-length embeddings and their distances, as functions of whole arrays of extended reals.

  An embedding is an affine map of the rows of an array, `x · w + b` (`affine`), with every row then divided by its
  Euclidean length, the square root of the sum of the squares of its entries (`unitRows`). The distance of two rows
  after a shift by `ε` is the square root of the sum of the squares of `a - b + ε` (`gap`), and a row `wins` when the
  distance to the negative example exceeds the distance to the positive one by more than a margin.

  Each of these reads, at row `r`, only row `r` of its row-indexed operands. So if `ab` is the block of rows
  `o, o + 1, …` of `a` (`RowsOf o a ab`), the function of the block is the block of the function.
-/
import proofs.«109221_j3925600108806_2_alg».proof.Proof.LibPlainDot
import proofs.«109221_j3925600108806_2_alg».proof.Proof.LibRowBias
import Idealize.ShloMosaic.PureOps.Ideal
import Idealize.ShloMosaic.Lib.ValueIdx

noncomputable section

namespace Cert.Embedding

open Idealize.ShloMosaic Idealize.ShloMosaic.ValueIdx Cert.LibPlainDot Cert.LibRowBias
open scoped BigOperators

/-- An `M` by `N` array of extended reals. -/
abbrev Mat (M N : ℕ) : Type := (⟨2, ![M, N]⟩ : Shape).Idx → EReal

/-- The rows of `x` times `w`, plus the one row `b`. -/
def affine {M K N : ℕ} (x : Mat M K) (w : Mat K N) (b : Mat 1 N) : Mat M N := rowBias (rowsTimes x w) b

/-- The sum of the squares of row `r`. -/
def sqLen {M N : ℕ} (y : Mat M N) (r : Fin M) : EReal := ∑ k : Fin N, y (ix2 r k) * y (ix2 r k)

/-- Every row divided by its Euclidean length. -/
def unitRows {M N : ℕ} (y : Mat M N) : Mat M N :=
  fun i => Ideal.div (y i) (Ideal.sqrt (sqLen y (⟨(i 0).val, idx2_lt0 i⟩ : Fin M)))

theorem unitRows_apply {M N : ℕ} (y : Mat M N) (p : Fin M) (q : Fin N) :
    unitRows y (ix2 p q) = Ideal.div (y (ix2 p q)) (Ideal.sqrt (sqLen y p)) := rfl

/-- The Euclidean length of row `r` of `a - b + ε`. -/
def gap {M N : ℕ} (ε : EReal) (a b : Mat M N) (r : Fin M) : EReal :=
  Ideal.sqrt (∑ k : Fin N, (a (ix2 r k) - b (ix2 r k) + ε) * (a (ix2 r k) - b (ix2 r k) + ε))

/-- Row `r` wins: the anchor `e` is farther from the negative `n` than from the positive `p` by more than `μ`. -/
def wins {M N : ℕ} (ε μ : EReal) (e p n : Mat M N) (r : Fin M) : BitVec 1 :=
  Ideal.cmp .ogt (gap ε e n r - gap ε e p r) μ

/-- `ab` is the block of rows `o, o + 1, …, o + R - 1` of `a`. -/
def RowsOf {M R N : ℕ} (o : ℕ) (a : Mat M N) (ab : Mat R N) : Prop :=
  ∀ (p : Fin R) (q : Fin N) (h : o + p.val < M), ab (ix2 p q) = a (ix2 (⟨o + p.val, h⟩ : Fin M) q)

theorem affine_rows {M R K N : ℕ} (o : ℕ) (x : Mat M K) (xb : Mat R K) (w : Mat K N) (b : Mat 1 N)
    (hx : RowsOf o x xb) : RowsOf o (affine x w b) (affine xb w b) := by
  intro p q h
  unfold affine
  exact rowBias_rows o (rowsTimes x w) (rowsTimes xb w) b
    (fun p' q' h' => rowsTimes_rows o x xb w hx (ix2 p' q') (ix2 (⟨o + p'.val, h'⟩ : Fin M) q') rfl rfl)
    (ix2 p q) (ix2 (⟨o + p.val, h⟩ : Fin M) q) rfl rfl

theorem sqLen_rows {M R N : ℕ} (o : ℕ) (y : Mat M N) (yb : Mat R N) (hy : RowsOf o y yb) (p : Fin R)
    (h : o + p.val < M) : sqLen yb p = sqLen y (⟨o + p.val, h⟩ : Fin M) := by
  unfold sqLen
  exact Finset.sum_congr rfl fun k _ => by rw [hy p k h]

theorem unitRows_rows {M R N : ℕ} (o : ℕ) (y : Mat M N) (yb : Mat R N) (hy : RowsOf o y yb) :
    RowsOf o (unitRows y) (unitRows yb) := by
  intro p q h
  rw [unitRows_apply, unitRows_apply, hy p q h, sqLen_rows o y yb hy p h]

theorem gap_rows {M R N : ℕ} (ε : EReal) (o : ℕ) (a b : Mat M N) (ab bb : Mat R N) (ha : RowsOf o a ab)
    (hb : RowsOf o b bb) (p : Fin R) (h : o + p.val < M) : gap ε ab bb p = gap ε a b (⟨o + p.val, h⟩ : Fin M) := by
  unfold gap
  refine congrArg Ideal.sqrt (Finset.sum_congr rfl fun k _ => ?_)
  rw [ha p k h, hb p k h]

theorem wins_rows {M R N : ℕ} (ε μ : EReal) (o : ℕ) (e p n : Mat M N) (eb pb nb : Mat R N) (he : RowsOf o e eb)
    (hp : RowsOf o p pb) (hn : RowsOf o n nb) (r : Fin R) (h : o + r.val < M) :
    wins ε μ eb pb nb r = wins ε μ e p n (⟨o + r.val, h⟩ : Fin M) := by
  unfold wins
  rw [gap_rows ε o e n eb nb he hn r h, gap_rows ε o e p eb pb he hp r h]

end Cert.Embedding

end
-- ==== Proof.LibPowerLaws.lean ====
/-
  Two spellings of a Euclidean length on the extended reals.

  One program squares a difference by multiplying it with itself and takes a square root; the other raises the
  absolute value to the power two and the sum to the power one half. On every extended real, infinities included,
  `|x| ^ 2 = x * x`; a product `x * x` is never negative, so neither is a sum of such products; and on a value that is
  not negative the power one half is the square root. The three float words involved denote `0`, `2` and `1/2`.
-/
import Idealize.ShloMosaic.PureOps.Ideal

noncomputable section

namespace Cert.PowerLaws

open Idealize.ShloMosaic
open scoped BigOperators

/-- The word of `+0.0` denotes `0`. -/
theorem zero_val : Ideal.ofBits .f32 0x00000000#32 = 0 := by
  simp [Ideal.ofBits, Ideal.ieee]

/-- The word of `2.0` denotes `2`. -/
theorem two_val : Ideal.ofBits .f32 0x40000000#32 = ((2 : ℝ) : EReal) := by
  simp [Ideal.ofBits, Ideal.ieee, -EReal.coe_mul]; norm_num

/-- The word of `0.5` denotes `1/2`. -/
theorem half_val : Ideal.ofBits .f32 0x3F000000#32 = ((1 / 2 : ℝ) : EReal) := by
  simp [Ideal.ofBits, Ideal.ieee, -EReal.coe_mul]; norm_num

/-- The absolute value squared is the product with itself, at the infinities too. -/
theorem pow_abs_two (x : EReal) : Ideal.pow (max x (-x)) ((2 : ℝ) : EReal) = x * x := by
  induction x using EReal.rec with
  | bot =>
    have h : max (⊥ : EReal) (-⊥) = ⊤ := by simp
    rw [h, Ideal.pow_top]
    simp
  | top =>
    have h : max (⊤ : EReal) (-⊤) = ⊤ := by simp
    rw [h, Ideal.pow_top]
    simp
  | coe r =>
    have h : max (r : EReal) (-(r : EReal)) = ((|r| : ℝ) : EReal) := by
      rw [← EReal.coe_neg, ← EReal.coe_strictMono.monotone.map_max, abs_eq_max_neg]
    rw [h, Ideal.pow_coe_coe, ← EReal.coe_mul]
    congr 1
    show |r| ^ (2 : ℝ) = r * r
    have e : |r| ^ (2 : ℝ) = |r| ^ (2 : ℕ) := by
      have := Real.rpow_natCast |r| 2
      simpa using this
    rw [e, sq_abs, sq]

/-- A product of an extended real with itself is not negative. -/
theorem mul_self_nonneg (x : EReal) : 0 ≤ x * x := by
  induction x using EReal.rec with
  | bot => simp
  | top => simp
  | coe r =>
    rw [← EReal.coe_mul]
    exact_mod_cast _root_.mul_self_nonneg r

/-- A sum of such products, from zero, is not negative. -/
theorem sum_mul_self_nonneg {ι : Type} (s : Finset ι) (f : ι → EReal) : 0 ≤ ∑ k ∈ s, f k * f k :=
  Finset.sum_nonneg fun k _ => mul_self_nonneg (f k)

/-- On a value that is not negative the power one half is the square root. -/
theorem pow_half (s : EReal) (hs : 0 ≤ s) : Ideal.pow s ((1 / 2 : ℝ) : EReal) = Ideal.sqrt s := by
  induction s using EReal.rec with
  | bot => exact absurd hs (by simp)
  | top =>
    rw [Ideal.pow_top, Ideal.sqrt_top]
    have : (0 : EReal) < ((1 / 2 : ℝ) : EReal) := by exact_mod_cast (by norm_num : (0 : ℝ) < 1 / 2)
    rw [if_pos this]
  | coe r =>
    have hr : 0 ≤ r := by exact_mod_cast hs
    rw [Ideal.pow_coe_coe, Ideal.sqrt_coe, if_neg (not_lt.mpr hr)]
    congr 1
    exact (Real.sqrt_eq_rpow r).symm

end Cert.PowerLaws

end
-- ==== Proof.LibColumns.lean ====
/-
  Column vectors read at an index: the keep-dimension forms of a shape cast and a broadcast.

  A row reduction that keeps its reduced axis leaves an `[a, 1]` column. Three layout steps meet such a column:
  an `[a]` vector cast to the column (entry (i, 0) is entry i), the column cast to a `[1, a]` row (entry (0, i) is
  entry (i, 0): both sit at row-major position i), and the column broadcast along its unit axis to `[a, b]`
  (entry (p, c) is entry (p, 0)). Each is stated at indices built from literal coordinates.
-/
import Idealize.ShloMosaic.Lib.Pipeline.Value
import Idealize.ShloMosaic.Lib.ValueIdx

namespace Cert.Columns

open Idealize.ShloMosaic Idealize.ShloMosaic.ValueIdx

variable {α : Type}

/-- An `[a]` vector cast to an `[a, 1]` column reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to a `[1, a]` row reads, at `(u, i)`, the operand at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the operand's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Columns
-- ==== Proof.LibRowOps.lean ====
/-
  Rows of a matrix read at an index, for any number of rows `R` and any width `W`.

  A sum along the rows of an `[R, W]` array — the vector unit's lane reduction with a zero accumulator, or the
  host's reduce from an initial value — is, at row `r`, the sum over `k : Fin W` of the entries `(r, k)`
  (the host's: the initial value plus that sum). A vector `[R]` broadcast to a column `[R, 1]` reads its entry
  `r`, and a column `[R, 1]` broadcast along its unit axis to `[R, W]` reads its entry `(r, 0)`. All are stated at
  indices built from literal coordinates, so they rewrite a payload whatever the width.
-/
import Idealize.ShloMosaic.PureOps.Ideal.Laws
import Idealize.ShloMosaic.Lib.Pipeline.Value
import Idealize.ShloMosaic.Lib.ValueIdx
import Idealize.ShloMosaic.Lib.IdealHost

namespace Cert.RowOps

open Idealize.ShloMosaic Idealize.ShloMosaic.ValueIdx
open scoped BigOperators

variable {R W : ℕ} {α : Type}

/-- Over row `r`, the index with column `k` inserted is `(r, k)`. -/
theorem lift_row (h : (⟨2, ![R, W]⟩ : Shape).Reduces [1] ⟨1, ![R]⟩) (r : Fin R) (k : Fin W) :
    h.lift (ix1 r) k = ix2 r k := by
  funext c
  match c with
  | ⟨0, _⟩ => exact Fin.ext rfl
  | ⟨1, _⟩ => exact Fin.ext rfl

/-- A lane sum with the zero accumulator, at row `r`: the sum of the row's entries. -/
theorem rowSumK (src : FVec Ideal ⟨2, ![R, W]⟩ .f32) (h : (⟨2, ![R, W]⟩ : Shape).Reduces [1] ⟨1, ![R]⟩)
    (hφ : FKind.Formats .f32) (hacc : (0x00000000#32 : BitVec 32) = 0x00000000#32) (r : Fin R) :
    multiReduction .add [1] ⟨1, ![R]⟩ src 0x00000000#32 h hφ hacc (ix1 r) = ∑ k : Fin W, src (ix2 r k) := by
  refine (Ideal.multiReduction_add_single src _ h hφ hacc (ix1 r)).trans ?_
  exact Finset.sum_congr rfl fun k _ => congrArg src (lift_row h r k)

/-- The host's sum along the rows from an initial value, at row `r`: that value plus the sum of the row's entries. -/
theorem rowSumH {u : Shape} (x : FVec Ideal ⟨2, ![R, W]⟩ .f32) (init : u.Idx → Ideal .f32)
    (h : (⟨2, ![R, W]⟩ : Shape).ReducesTo [1] ⟨1, ![R]⟩) (hu : 0 < u.numel) (r : Fin R) :
    Host.reduceAdd x init h hu (ix1 r) = init (Shape.Idx.first hu) + ∑ k : Fin W, x (ix2 r k) := by
  have h' : (⟨2, ![R, W]⟩ : Shape).Reduces [1] ⟨1, ![R]⟩ := h.elim fun e hb => ⟨e, Nat.one_pos, hb⟩
  refine (hostReduceAdd_apply x init h hu (ix1 r)).trans ?_
  refine (Ideal.hostReduceAdd_single h h' x _ (ix1 r)).trans ?_
  exact congrArg _ (Finset.sum_congr rfl fun k _ => congrArg x (lift_row h' r k))

/-- A vector `[R]` broadcast to a column `[R, 1]` reads, at `(r, u)`, its entry `r`. -/
theorem bcastCol (v : (⟨1, ![R]⟩ : Shape).Idx → α)
    (h : (⟨1, ![R]⟩ : Shape).BroadcastsInDim ⟨2, ![R, 1]⟩ (![0] : Fin 1 → Fin 2)) (r : Fin R) (u : Fin 1) :
    broadcastInDim ⟨2, ![R, 1]⟩ (![0] : Fin 1 → Fin 2) h v (ix2 r u) = v (ix1 r) := by
  refine broadcastInDim_apply _ h v (ix2 r u) (ix1 r) fun a => ?_
  match a with
  | ⟨0, _⟩ =>
    show r.val = if R = 1 then 0 else r.val
    split
    · have := r.isLt; omega
    · rfl

/-- A column `[R, 1]` broadcast to `[R, W]` reads, at `(r, k)`, its entry `(r, 0)`. -/
theorem bcastRows (v : (⟨2, ![R, 1]⟩ : Shape).Idx → α)
    (h : (⟨2, ![R, 1]⟩ : Shape).BroadcastsInDim ⟨2, ![R, W]⟩ (![0, 1] : Fin 2 → Fin 2)) (r : Fin R) (k : Fin W) :
    broadcastInDim ⟨2, ![R, W]⟩ (![0, 1] : Fin 2 → Fin 2) h v (ix2 r k) = v (ix2 r (0 : Fin 1)) := by
  refine broadcastInDim_apply _ h v (ix2 r k) (ix2 r (0 : Fin 1)) fun a => ?_
  match a with
  | ⟨0, _⟩ =>
    show r.val = if R = 1 then 0 else r.val
    split
    · have := r.isLt; omega
    · rfl
  | ⟨1, _⟩ => rfl

end Cert.RowOps
-- ==== Proof.LibRowBiasHost.lean ====
/-
  The host's spelling of "add one row to every row", read as `rowBias` / `rowBiasFloor`.

  On the host a length-`N` vector is first broadcast to `[1, N]` along axis 1, then to `[M, N]` along both axes, and
  added to an `[M, N]` array; a ReLU then takes the maximum with a broadcast scalar. At entry `(p, q)` both broadcasts
  read the vector at `q`, which is also what the vector RESHAPED to `[1, N]` holds at `(0, q)`: so the host's sum is
  `rowBias` of the array and the reshaped vector, and with the maximum it is `rowBiasFloor` at the scalar's value.
-/
import proofs.«109221_j3925600108806_2_alg».proof.Proof.LibRowBias
import Idealize.ShloMosaic.Lib.Pipeline.Value
import Idealize.ShloMosaic.Lib.ValueLayout

noncomputable section

namespace Cert.LibRowBias

open Idealize.ShloMosaic Idealize.ShloMosaic.ValueIdx

/-- A vector broadcast to one row and then over `M` rows reads, at `(p, q)`, the vector at `q`. -/
theorem bcastRow_apply {α : Type} {M N : ℕ}
    (h1 : (⟨1, ![N]⟩ : Shape).BroadcastsInDim ⟨2, ![1, N]⟩ ![1])
    (h2 : (⟨2, ![1, N]⟩ : Shape).BroadcastsInDim ⟨2, ![M, N]⟩ ![0, 1])
    (x : (⟨1, ![N]⟩ : Shape).Idx → α) (p : Fin M) (q : Fin N) :
    broadcastInDim ⟨2, ![M, N]⟩ ![0, 1] h2 (broadcastInDim ⟨2, ![1, N]⟩ ![1] h1 x) (ix2 p q) = x (ix1 q) := by
  have hq : q.val = if N = 1 then 0 else q.val := by
    split
    · have := q.isLt; omega
    · rfl
  refine (broadcastInDim_apply ![0, 1] h2 (broadcastInDim ⟨2, ![1, N]⟩ ![1] h1 x) (ix2 p q) (ix2 (0 : Fin 1) q) (fun a => ?_)).trans ?_
  · match a with
    | ⟨0, _⟩ => show 0 = if (1 : ℕ) = 1 then 0 else p.val; rw [if_pos rfl]
    | ⟨1, _⟩ => show q.val = if N = 1 then 0 else q.val; exact hq
  · refine broadcastInDim_apply ![1] h1 x (ix2 (0 : Fin 1) q) (ix1 q) (fun a => ?_)
    match a with
    | ⟨0, _⟩ => show q.val = if N = 1 then 0 else q.val; exact hq

/-- The host's sum of an array and a twice-broadcast vector is `rowBias` of the array and the reshaped vector. -/
theorem addf_bcastRow {M N : ℕ} (a : FVec Ideal ⟨2, ![M, N]⟩ .f32) (x : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf a (broadcastInDim ⟨2, ![M, N]⟩ ![0, 1] h2 (broadcastInDim ⟨2, ![1, N]⟩ ![1] h1 x))
      = rowBias (M := M) (N := N) a (shapeCast ⟨2, ![1, N]⟩ x hc) := by
  funext i
  obtain ⟨p, q, rfl⟩ : ∃ (p : Fin M) (q : Fin N), i = ix2 p q :=
    ⟨⟨(i 0).val, idx2_lt0 i⟩, ⟨(i 1).val, idx2_lt1 i⟩, by funext d; match d with | ⟨0, _⟩ => rfl | ⟨1, _⟩ => rfl⟩
  rw [rowBias_apply, shapeCast_a_1a_apply]
  show a (ix2 p q) + broadcastInDim ⟨2, ![M, N]⟩ ![0, 1] h2 (broadcastInDim ⟨2, ![1, N]⟩ ![1] h1 x) (ix2 p q) = _
  rw [bcastRow_apply]

/-- With the ReLU's maximum against a broadcast scalar word `w`: `rowBiasFloor` at the word's value. -/
theorem max_addf_bcastRow {M N : ℕ} (w : BitVec 32) (a : FVec Ideal ⟨2, ![M, N]⟩ .f32) (x : FVec Ideal ⟨1, ![N]⟩ .f32)
    (h0 : (⟨0, ![]⟩ : Shape).BroadcastsInDim ⟨2, ![M, N]⟩ ![])
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    maximumf (addf a (broadcastInDim ⟨2, ![M, N]⟩ ![0, 1] h2 (broadcastInDim ⟨2, ![1, N]⟩ ![1] h1 x)))
        (broadcastInDim ⟨2, ![M, N]⟩ ![] h0 (constant (F := Ideal) ⟨0, ![]⟩ .f32 w))
      = rowBiasFloor (M := M) (N := N) (Ideal.ofBits .f32 w) a (shapeCast ⟨2, ![1, N]⟩ x hc) := by
  rw [addf_bcastRow a x h1 h2 hc]
  rfl

end Cert.LibRowBias

end
-- ==== Proof.LibUnitRowsForms.lean ====
/-
  The two programs' spellings of the embedding functions, read as those functions, for any extents.

  A kernel body spells the affine map as a matrix-unit product into the zero splat plus a one-row broadcast, a row's
  length as a lane sum from the zero word, cast to a column, under a square root, and the division by it through a
  column broadcast. The host spells the same with `dot_general`, a twice-broadcast vector, a reduce from a zero
  constant and broadcasts in dimensions. For the distance the kernel multiplies the shifted difference with itself and
  takes a square root; the host raises its absolute value to the power two and the sum to the power one half, which
  is the same value on the extended reals (a sum of squares is never negative).
-/
import proofs.«109221_j3925600108806_2_alg».proof.Proof.LibUnitRows
import proofs.«109221_j3925600108806_2_alg».proof.Proof.LibPowerLaws
import proofs.«109221_j3925600108806_2_alg».proof.Proof.LibColumns
import proofs.«109221_j3925600108806_2_alg».proof.Proof.LibRowOps
import proofs.«109221_j3925600108806_2_alg».proof.Proof.LibRowBiasHost
import Idealize.ShloMosaic.Lib.Pipeline.Value
import Idealize.ShloMosaic.Lib.ValueLayout
import Idealize.ShloMosaic.Lib.IdealHost

noncomputable section

namespace Cert.Forms

open Idealize.ShloMosaic Idealize.ShloMosaic.ValueIdx Cert.Embedding Cert.LibPlainDot Cert.LibRowBias Cert.PowerLaws
open scoped BigOperators

variable {M K N : ℕ}

/-- One row `[1, N]` broadcast over `M` rows reads, at `(p, q)`, its entry `(0, q)`. -/
theorem broadcastTo_row_apply {α : Type} (v : (⟨2, ![1, N]⟩ : Shape).Idx → α)
    (h : (⟨2, ![1, N]⟩ : Shape).Broadcasts ⟨2, ![M, N]⟩) (p : Fin M) (q : Fin N) :
    broadcastTo ⟨2, ![M, N]⟩ v h (ix2 p q) = v (ix2 (0 : Fin 1) q) := by
  refine broadcastTo_apply v h (ix2 p q) (ix2 (0 : Fin 1) q) fun ax => ?_
  match ax with
  | ⟨0, _⟩ => show 0 = if (1 : ℕ) = 1 then 0 else p.val; rw [if_pos rfl]
  | ⟨1, _⟩ =>
    show q.val = if N = 1 then 0 else q.val
    split
    · have := q.isLt; omega
    · rfl

/-- A scalar word broadcast to any shape reads the word's value everywhere. -/
theorem bcastWord_apply {t : Shape} (h : (⟨0, ![]⟩ : Shape).BroadcastsInDim t ![]) (w : BitVec 32) (i : t.Idx) :
    broadcastInDim t ![] h (constant (F := Ideal) ⟨0, ![]⟩ .f32 w) i = Ideal.ofBits .f32 w :=
  broadcastInDim_apply _ h _ i (fun a => a.elim0) (fun a => a.elim0)

/-! ## A kernel body's spellings -/

/-- The matrix-unit product into the zero splat plus the bias row broadcast down the rows is `affine`. -/
theorem affine_body (prec : Option ContractPrecision) (x : FVec Ideal ⟨2, ![M, K]⟩ .f32) (w : FVec Ideal ⟨2, ![K, N]⟩ .f32)
    (b : FVec Ideal ⟨1, ![N]⟩ .f32) (hc : (⟨1, ![N]⟩ : Shape).ShapeCasts ⟨2, ![1, N]⟩)
    (hb : (⟨2, ![1, N]⟩ : Shape).Broadcasts ⟨2, ![M, N]⟩) :
    addf (matmul (DotDims.plain M K N) prec x w (constant ⟨2, ![M, N]⟩ .f32 0x00000000#32))
        (broadcastTo ⟨2, ![M, N]⟩ (shapeCast ⟨2, ![1, N]⟩ b hc) hb)
      = affine x w (shapeCast ⟨2, ![1, N]⟩ b hc) := by
  funext i
  obtain ⟨p, q, rfl⟩ : ∃ (p : Fin M) (q : Fin N), i = ix2 p q := ⟨i 0, i 1, eq_ix2 i⟩
  unfold affine
  rw [rowBias_apply]
  show FloatOps.matmul (DotDims.plain M K N) prec x w (constant ⟨2, ![M, N]⟩ .f32 0x00000000#32) (ix2 p q)
      + broadcastTo ⟨2, ![M, N]⟩ (shapeCast ⟨2, ![1, N]⟩ b hc) hb (ix2 p q) = _
  rw [matmul_zero_plain, broadcastTo_row_apply]

/-- Dividing by the column of row lengths, spelt with a lane sum, a cast to a column and a column broadcast. -/
theorem unitRows_body (y : FVec Ideal ⟨2, ![M, N]⟩ .f32) (hred : (⟨2, ![M, N]⟩ : Shape).Reduces [1] ⟨1, ![M]⟩)
    (hφ : FKind.Formats .f32) (hacc : (0x00000000#32 : BitVec 32) = 0x00000000#32)
    (hc : (⟨1, ![M]⟩ : Shape).ShapeCasts ⟨2, ![M, 1]⟩) (hb : (⟨2, ![M, 1]⟩ : Shape).Broadcasts ⟨2, ![M, N]⟩) :
    divf y (broadcastTo ⟨2, ![M, N]⟩
        (sqrt (shapeCast ⟨2, ![M, 1]⟩ (multiReduction .add [1] ⟨1, ![M]⟩ (mulf y y) 0x00000000#32 hred hφ hacc) hc)) hb)
      = unitRows y := by
  funext i
  obtain ⟨p, q, rfl⟩ : ∃ (p : Fin M) (q : Fin N), i = ix2 p q := ⟨i 0, i 1, eq_ix2 i⟩
  rw [unitRows_apply]
  show Ideal.div (y (ix2 p q)) (broadcastTo ⟨2, ![M, N]⟩
      (sqrt (shapeCast ⟨2, ![M, 1]⟩ (multiReduction .add [1] ⟨1, ![M]⟩ (mulf y y) 0x00000000#32 hred hφ hacc) hc)) hb (ix2 p q)) = _
  rw [Columns.broadcastTo_a1_ab_apply]
  show Ideal.div _ (Ideal.sqrt (shapeCast ⟨2, ![M, 1]⟩ (multiReduction .add [1] ⟨1, ![M]⟩ (mulf y y) 0x00000000#32 hred hφ hacc) hc (ix2 p (0 : Fin 1)))) = _
  rw [Columns.shapeCast_a_a1_apply, RowOps.rowSumK]
  rfl

/-- The length of a row of the shifted difference, spelt with a product, a lane sum and a square root. -/
theorem gap_body (εw : BitVec 32) (a b : FVec Ideal ⟨2, ![M, N]⟩ .f32) (hred : (⟨2, ![M, N]⟩ : Shape).Reduces [1] ⟨1, ![M]⟩)
    (hφ : FKind.Formats .f32) (hacc : (0x00000000#32 : BitVec 32) = 0x00000000#32)
    (hc : (⟨1, ![M]⟩ : Shape).ShapeCasts ⟨2, ![M, 1]⟩) (r : Fin M) (u : Fin 1) :
    sqrt (shapeCast ⟨2, ![M, 1]⟩ (multiReduction .add [1] ⟨1, ![M]⟩
        (mulf (addf (subf a b) (broadcast ⟨2, ![M, N]⟩ (Scalar.ofBits .f32 εw)))
              (addf (subf a b) (broadcast ⟨2, ![M, N]⟩ (Scalar.ofBits .f32 εw)))) 0x00000000#32 hred hφ hacc) hc) (ix2 r u)
      = gap (Ideal.ofBits .f32 εw) a b r := by
  show Ideal.sqrt (shapeCast ⟨2, ![M, 1]⟩ (multiReduction .add [1] ⟨1, ![M]⟩
        (mulf (addf (subf a b) (broadcast ⟨2, ![M, N]⟩ (Scalar.ofBits .f32 εw)))
              (addf (subf a b) (broadcast ⟨2, ![M, N]⟩ (Scalar.ofBits .f32 εw)))) 0x00000000#32 hred hφ hacc) hc (ix2 r u)) = _
  rw [Columns.shapeCast_a_a1_apply, RowOps.rowSumK]
  rfl

/-! ## The host's spellings -/

/-- The host's `dot_general` plus a twice-broadcast bias vector is `affine`. -/
theorem affine_host (prec : Option ContractPrecision) (x : FVec Ideal ⟨2, ![M, K]⟩ .f32) (w : FVec Ideal ⟨2, ![K, N]⟩ .f32)
    (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (hc : (⟨1, ![N]⟩ : Shape).ShapeCasts ⟨2, ![1, N]⟩) :
    addf (Host.dotGeneral (DotDims.plain M K N) prec x w)
        (broadcastInDim ⟨2, ![M, N]⟩ ![0, 1] h2 (broadcastInDim ⟨2, ![1, N]⟩ ![1] h1 b))
      = affine x w (shapeCast ⟨2, ![1, N]⟩ b hc) := by
  rw [addf_bcastRow _ b h1 h2 hc]
  unfold affine Host.dotGeneral
  rw [dotGeneral_plain]

/-- The host's division by the broadcast column of row lengths is `unitRows`. -/
theorem unitRows_host (y : FVec Ideal ⟨2, ![M, N]⟩ .f32) (hr : (⟨2, ![M, N]⟩ : Shape).ReducesTo [1] ⟨1, ![M]⟩)
    (hu : 0 < (⟨0, ![]⟩ : Shape).numel)
    (h1 : (⟨1, ![M]⟩ : Shape).BroadcastsInDim ⟨2, ![M, 1]⟩ (![0] : Fin 1 → Fin 2))
    (h2 : (⟨2, ![M, 1]⟩ : Shape).BroadcastsInDim ⟨2, ![M, N]⟩ (![0, 1] : Fin 2 → Fin 2)) :
    Host.divf y (broadcastInDim ⟨2, ![M, N]⟩ (![0, 1] : Fin 2 → Fin 2) h2
        (Host.sqrt (broadcastInDim ⟨2, ![M, 1]⟩ (![0] : Fin 1 → Fin 2) h1
          (Host.reduceAdd (mulf y y) (constant (F := Ideal) ⟨0, ![]⟩ .f32 0x00000000#32) hr hu))))
      = unitRows y := by
  funext i
  obtain ⟨p, q, rfl⟩ : ∃ (p : Fin M) (q : Fin N), i = ix2 p q := ⟨i 0, i 1, eq_ix2 i⟩
  rw [unitRows_apply]
  show Ideal.div (y (ix2 p q)) (broadcastInDim ⟨2, ![M, N]⟩ (![0, 1] : Fin 2 → Fin 2) h2
        (Host.sqrt (broadcastInDim ⟨2, ![M, 1]⟩ (![0] : Fin 1 → Fin 2) h1
          (Host.reduceAdd (mulf y y) (constant (F := Ideal) ⟨0, ![]⟩ .f32 0x00000000#32) hr hu))) (ix2 p q)) = _
  rw [RowOps.bcastRows]
  show Ideal.div _ (Ideal.sqrt (broadcastInDim ⟨2, ![M, 1]⟩ (![0] : Fin 1 → Fin 2) h1
          (Host.reduceAdd (mulf y y) (constant (F := Ideal) ⟨0, ![]⟩ .f32 0x00000000#32) hr hu) (ix2 p (0 : Fin 1)))) = _
  rw [RowOps.bcastCol, RowOps.rowSumH]
  show Ideal.div _ (Ideal.sqrt (Ideal.ofBits .f32 0x00000000#32 + ∑ k : Fin N, y (ix2 p k) * y (ix2 p k))) = _
  rw [zero_val, zero_add]
  rfl

/-- The host's distance — absolute value to the power two, summed from zero, to the power one half — is `gap`. -/
theorem gap_host (εw : BitVec 32) (a b : FVec Ideal ⟨2, ![M, N]⟩ .f32)
    (h0 : (⟨0, ![]⟩ : Shape).BroadcastsInDim ⟨2, ![M, N]⟩ ![]) (h0' : (⟨0, ![]⟩ : Shape).BroadcastsInDim ⟨1, ![M]⟩ ![])
    (hr : (⟨2, ![M, N]⟩ : Shape).ReducesTo [1] ⟨1, ![M]⟩) (hu : 0 < (⟨0, ![]⟩ : Shape).numel) (r : Fin M) :
    Host.powf (Host.reduceAdd
        (Host.powf (Host.absf (addf (subf a b) (broadcastInDim ⟨2, ![M, N]⟩ ![] h0 (constant (F := Ideal) ⟨0, ![]⟩ .f32 εw))))
          (broadcastInDim ⟨2, ![M, N]⟩ ![] h0 (constant (F := Ideal) ⟨0, ![]⟩ .f32 0x40000000#32)))
        (constant (F := Ideal) ⟨0, ![]⟩ .f32 0x00000000#32) hr hu)
      (broadcastInDim ⟨1, ![M]⟩ ![] h0' (constant (F := Ideal) ⟨0, ![]⟩ .f32 0x3F000000#32)) (ix1 r)
      = gap (Ideal.ofBits .f32 εw) a b r := by
  show Ideal.pow (Host.reduceAdd
        (Host.powf (Host.absf (addf (subf a b) (broadcastInDim ⟨2, ![M, N]⟩ ![] h0 (constant (F := Ideal) ⟨0, ![]⟩ .f32 εw))))
          (broadcastInDim ⟨2, ![M, N]⟩ ![] h0 (constant (F := Ideal) ⟨0, ![]⟩ .f32 0x40000000#32)))
        (constant (F := Ideal) ⟨0, ![]⟩ .f32 0x00000000#32) hr hu (ix1 r))
      (broadcastInDim ⟨1, ![M]⟩ ![] h0' (constant (F := Ideal) ⟨0, ![]⟩ .f32 0x3F000000#32) (ix1 r)) = _
  rw [RowOps.rowSumH, bcastWord_apply, half_val]
  have hk : ∀ k : Fin N,
      Host.powf (Host.absf (addf (subf a b) (broadcastInDim ⟨2, ![M, N]⟩ ![] h0 (constant (F := Ideal) ⟨0, ![]⟩ .f32 εw))))
          (broadcastInDim ⟨2, ![M, N]⟩ ![] h0 (constant (F := Ideal) ⟨0, ![]⟩ .f32 0x40000000#32)) (ix2 r k)
        = (a (ix2 r k) - b (ix2 r k) + Ideal.ofBits .f32 εw) * (a (ix2 r k) - b (ix2 r k) + Ideal.ofBits .f32 εw) := by
    intro k
    show Ideal.pow (max (a (ix2 r k) - b (ix2 r k) + broadcastInDim ⟨2, ![M, N]⟩ ![] h0 (constant (F := Ideal) ⟨0, ![]⟩ .f32 εw) (ix2 r k))
          (-(a (ix2 r k) - b (ix2 r k) + broadcastInDim ⟨2, ![M, N]⟩ ![] h0 (constant (F := Ideal) ⟨0, ![]⟩ .f32 εw) (ix2 r k))))
        (broadcastInDim ⟨2, ![M, N]⟩ ![] h0 (constant (F := Ideal) ⟨0, ![]⟩ .f32 0x40000000#32) (ix2 r k)) = _
    rw [bcastWord_apply, bcastWord_apply, two_val, pow_abs_two]
  rw [Finset.sum_congr rfl fun k _ => hk k]
  show Ideal.pow (Ideal.ofBits .f32 0x00000000#32 + _) _ = _
  rw [zero_val, zero_add]
  exact pow_half _ (sum_mul_self_nonneg _ _)

end Cert.Forms

end
-- ==== Proof.KernelBody.lean ====
/-
  What the kernel's body computes from the blocks it loads, at the ideal values.

  From a block of 1024 rows of images `x`, the image weights `w` and bias `b` the body forms the unit-length rows
  of `x · w + b`; from a block of 1024 rows of hidden features and the second layer's weights and bias, the same.
  From the three blocks of unit rows it forms, row by row, the two shifted distances and the margin test, widens the
  one-bit answers to 32 bits and lays the 1024 answers out as 8 rows of 128: answer `a * 128 + b` sits at `(a, b)`.
-/
import proofs.«109221_j3925600108806_2_alg».proof.Proof.Gen.KernelIdeal.Skeleton
import proofs.«109221_j3925600108806_2_alg».proof.Proof.LibUnitRowsForms

noncomputable section

namespace Cert.KernelIdeal.Body

open Idealize.ShloMosaic Idealize.ShloMosaic.ValueIdx Cert.KernelIdeal Cert.KernelIdeal.Gen Cert.Embedding Cert.Forms

/-- The shift added to a difference of unit rows, and the margin. -/
abbrev εw : BitVec 32 := 0x358637BD#32
abbrev μw : BitVec 32 := 0x3E99999A#32

/-- The image branch: unit rows of `x · w + b`. -/
theorem pay2_eq (x0 : Vec Ideal S1024x2048 .f32) (x1 : Vec Ideal S2048x256 .f32) (x2 : Vec Ideal S256 .f32) :
    k0_pay2 x0 x1 x2
      = unitRows (affine (M := 1024) (K := 2048) (N := 256) x0 x1 (shapeCast S1x256 x2 shapeCasts_S256_S1x256)) := by
  have e := affine_body (M := 1024) (K := 2048) (N := 256) none x0 x1 x2 shapeCasts_S256_S1x256 broadcasts_S1x256_S1024x256
  unfold k0_pay2
  rw [← e]
  exact unitRows_body _ reduces_S1024x256_S1024 (.inl rfl) rfl shapeCasts_S1024_S1024x1 broadcasts_S1024x1_S1024x256

/-- An attribute branch: unit rows of `h · w + b` (the body casts the block to its own shape first). -/
theorem pay3_eq (x5 : Vec Ideal S256x256 .f32) (x6 : Vec Ideal S256 .f32) (x3 : Vec Ideal S1024x256 .f32) :
    k0_pay3 x5 x6 x3
      = unitRows (affine (M := 1024) (K := 256) (N := 256) x3 x5 (shapeCast S1x256 x6 shapeCasts_S256_S1x256)) := by
  have e := affine_body (M := 1024) (K := 256) (N := 256) none x3 x5 x6 shapeCasts_S256_S1x256 broadcasts_S1x256_S1024x256
  unfold k0_pay3
  rw [shapeCast_self, ← e]
  exact unitRows_body _ reduces_S1024x256_S1024 (.inl rfl) rfl shapeCasts_S1024_S1024x1 broadcasts_S1024x1_S1024x256

/-- The other attribute branch is the same function. -/
theorem pay4_eq (x5 : Vec Ideal S256x256 .f32) (x6 : Vec Ideal S256 .f32) (x4 : Vec Ideal S1024x256 .f32) :
    k0_pay4 x5 x6 x4
      = unitRows (affine (M := 1024) (K := 256) (N := 256) x4 x5 (shapeCast S1x256 x6 shapeCasts_S256_S1x256)) := by
  have e := affine_body (M := 1024) (K := 256) (N := 256) none x4 x5 x6 shapeCasts_S256_S1x256 broadcasts_S1x256_S1024x256
  unfold k0_pay4
  rw [shapeCast_self, ← e]
  exact unitRows_body _ reduces_S1024x256_S1024 (.inl rfl) rfl shapeCasts_S1024_S1024x1 broadcasts_S1024x1_S1024x256

/-- The packed margin tests: entry `(a, b)` is the widened test of row `a * 128 + b`. -/
theorem pay1_apply (e n p : FVec Ideal S1024x256 .f32) (a : Fin 8) (b : Fin 128) :
    k0_pay1 e n (subf e p) (Scalar.ofBits .f32 εw) (ix2 a b)
      = (wins (M := 1024) (N := 256) (Ideal.ofBits .f32 εw) (Ideal.ofBits .f32 μw) e p n
          (⟨a.val * 128 + b.val, by have := a.isLt; have := b.isLt; omega⟩ : Fin 1024)).setWidth 32 := by
  unfold k0_pay1
  refine (shapeCast_apply _ shapeCasts_S1024x1_S8x128 (ix2 a b)
    (ix2 (⟨a.val * 128 + b.val, by have := a.isLt; have := b.isLt; omega⟩ : Fin 1024) (0 : Fin 1)) ?_).trans ?_
  · rw [Shape.rowMajor_val_two, Shape.rowMajor_val_two]
    show (a.val * 128 + b.val) * 1 + 0 = a.val * 128 + b.val
    omega
  · simp only [extui_apply, cmpf_apply, subf_apply, broadcast_apply]
    rw [gap_body εw e n reduces_S1024x256_S1024 (.inl rfl) rfl shapeCasts_S1024_S1024x1,
      gap_body εw e p reduces_S1024x256_S1024 (.inl rfl) rfl shapeCasts_S1024_S1024x1]
    rfl

end Cert.KernelIdeal.Body

end
-- ==== Proof.LibWordTotal.lean ====
/-
  Counting by a sum of 32-bit words that does not depend on how the words are laid out.

  The host's reduce by integer addition over every axis of an array, from a zero constant, is the fold of the
  addition over all the array's entries, in any order (the addition of words is commutative and associative). A
  reshape lists the same entries under new indices, each exactly once, so the total of a reshaped array is the total
  of the array: a count of winning rows is the same whether the 0/1 words sit in one long vector or in rows of 128.
-/
import Idealize.ShloMosaic.PureOps.Reduce
import Idealize.ShloMosaic.Lib.Pipeline.Value

noncomputable section

namespace Cert.Count

open Idealize.ShloMosaic

/-- The total of all entries of an array of words, as a one-entry array. -/
def total {s : Shape} (x : s.Idx → BitVec 32) : (⟨1, ![1]⟩ : Shape).Idx → BitVec 32 :=
  fun _ => (Finset.univ : Finset s.Idx).fold IntOp.addi 0#32 x

/-- A reshape keeps the total. -/
theorem total_shapeCast {s t : Shape} (x : s.Idx → BitVec 32) (h : s.ShapeCasts t) :
    total (shapeCast t x h) = total x := by
  funext _
  unfold total
  have e : shapeCast t x h = x ∘ (Shape.reshapeEquiv h) := rfl
  rw [e, ← Finset.fold_image (g := Shape.reshapeEquiv h) (fun _ _ _ _ hxy => (Shape.reshapeEquiv h).injective hxy),
    Finset.image_univ_equiv]

/-- The host's sum over every axis from a zero constant, reshaped to one entry, is the total. -/
theorem hostTotal {s : Shape} {axes : List (Fin s.rank)} (x : s.Idx → BitVec 32) (h : s.ReducesTo axes ⟨0, ![]⟩)
    (hu : 0 < (⟨0, ![]⟩ : Shape).numel) (hc : (⟨0, ![]⟩ : Shape).ShapeCasts ⟨1, ![1]⟩) :
    shapeCast ⟨1, ![1]⟩ (Host.reduce IntOp.addi x (constantI ⟨0, ![]⟩ 32 0#32) h hu) hc = total x := by
  funext i
  show Host.reduce IntOp.addi x (constantI ⟨0, ![]⟩ 32 0#32) h hu (Shape.reshapeEquiv hc i) = _
  rw [Host.reduce_eq_fold]
  unfold total
  congr 1
  exact Finset.filter_true_of_mem fun k _ => funext fun a => a.elim0

end Cert.Count

end
-- ==== Proof.Target.lean ====
/-
  The four results, as functions of whole arrays: the unit-length image embeddings, the unit-length embeddings of the
  two attribute branches, and the number of rows whose negative example is farther than the positive one by more than
  the margin, counted as a sum of 0/1 words.
-/
import proofs.«109221_j3925600108806_2_alg».proof.Proof.LibUnitRows
import proofs.«109221_j3925600108806_2_alg».proof.Proof.LibWordTotal
import Idealize.ShloMosaic.Lib.Pipeline.Value

noncomputable section

namespace Cert.Target

open Idealize.ShloMosaic Idealize.ShloMosaic.ValueIdx Cert.Embedding

/-- A vector of 256 entries has as many entries as one row of 256. -/
theorem rowCast : (⟨1, ![256]⟩ : Shape).ShapeCasts ⟨2, ![1, 256]⟩ := by decide

/-- A bias vector as one row. -/
abbrev biasRow (b : (⟨1, ![256]⟩ : Shape).Idx → EReal) : Mat 1 256 := shapeCast ⟨2, ![1, 256]⟩ b rowCast

/-- Unit-length rows of `x · w + b`, for 16384 rows, any inner extent and 256 columns. -/
def embed {K : ℕ} (x : Mat 16384 K) (w : Mat K 256) (b : (⟨1, ![256]⟩ : Shape).Idx → EReal) : Mat 16384 256 :=
  unitRows (affine x w (biasRow b))

/-- The shift of a difference of unit rows and the margin, as the float words both programs spell. -/
abbrev εw : BitVec 32 := 0x358637BD#32
abbrev μw : BitVec 32 := 0x3E99999A#32

/-- Row by row, the margin test widened to a 32-bit word. -/
def marks (e p n : Mat 16384 256) : (⟨1, ![16384]⟩ : Shape).Idx → BitVec 32 :=
  fun j => (wins (Ideal.ofBits .f32 εw) (Ideal.ofBits .f32 μw) e p n (⟨(j 0).val, (j 0).isLt⟩ : Fin 16384)).setWidth 32

theorem marks_apply (e p n : Mat 16384 256) (r : Fin 16384) :
    marks e p n (ix1 r) = (wins (Ideal.ofBits .f32 εw) (Ideal.ofBits .f32 μw) e p n r).setWidth 32 := rfl

/-- The number of winning rows. -/
def correct (e p n : Mat 16384 256) : (⟨1, ![1]⟩ : Shape).Idx → BitVec 32 := Count.total (marks e p n)

end Cert.Target

end
-- ==== Proof.KernelBlocks.lean ====
/-
  What one grid point of the kernel writes back, in terms of whole arrays.

  Grid point `t` loads rows `1024 t, …, 1024 t + 1023` of the images and of the two arrays of hidden features, and
  the weights and biases whole. Every result row depends on its own row of those three arrays only, so what the body
  leaves in an output block is that block of rows of the target function of the whole arrays; the packed margin tests
  of the point are tests `1024 t + 128 a + b` at position `(a, b)`.
-/
import proofs.«109221_j3925600108806_2_alg».proof.Proof.Gen.KernelIdeal.Frame
import proofs.«109221_j3925600108806_2_alg».proof.Proof.KernelBody
import proofs.«109221_j3925600108806_2_alg».proof.Proof.Target
import Idealize.ShloMosaic.Lib.Pipeline.Value

set_option maxRecDepth 16384

noncomputable section

namespace Cert.KernelIdeal.Blocks

open Idealize.ShloMosaic Idealize.ShloMosaic.ValueIdx Cert.KernelIdeal Cert.KernelIdeal.Gen
open Cert.Embedding Cert.Target

theorem hz2 : (![0, 0] : Fin 2 → Nat) = fun _ => 0 := funext fun a => by fin_cases a <;> rfl
theorem hz1 : (![0] : Fin 1 → Nat) = fun _ => 0 := funext fun a => by fin_cases a; rfl

/-- The image block's output: the block of rows of the image embeddings. -/
theorem out7_rows (o : ℕ) (X : Mat 16384 2048) (x0 : Vec Ideal S1024x2048 .f32) (x1 : Vec Ideal S2048x256 .f32)
    (x2 : Vec Ideal S256 .f32) (x3 x4 : Vec Ideal S1024x256 .f32) (x5 : Vec Ideal S256x256 .f32) (x6 : Vec Ideal S256 .f32)
    (hX : RowsOf o X x0) : RowsOf o (embed X x1 x2) (out0_7 x0 x1 x2 x3 x4 x5 x6) := by
  unfold out0_7
  rw [View.canon_unit_zero hz2]
  simp only [View.ld_unit_zero (S := S1024x2048) hz2, View.ld_unit_zero (S := S2048x256) hz2, View.ld_unit_zero (S := S256) hz1]
  rw [Body.pay2_eq]
  exact unitRows_rows o _ _ (affine_rows o X x0 x1 _ hX)

/-- The positive branch's output. -/
theorem out8_rows (o : ℕ) (H : Mat 16384 256) (x0 : Vec Ideal S1024x2048 .f32) (x1 : Vec Ideal S2048x256 .f32)
    (x2 : Vec Ideal S256 .f32) (x3 x4 : Vec Ideal S1024x256 .f32) (x5 : Vec Ideal S256x256 .f32) (x6 : Vec Ideal S256 .f32)
    (hH : RowsOf o H x3) : RowsOf o (embed H x5 x6) (out0_8 x0 x1 x2 x3 x4 x5 x6) := by
  unfold out0_8
  rw [View.canon_unit_zero hz2]
  simp only [View.ld_unit_zero (S := S256x256) hz2, View.ld_unit_zero (S := S1024x256) hz2, View.ld_unit_zero (S := S256) hz1]
  rw [Body.pay3_eq]
  exact unitRows_rows o _ _ (affine_rows o H x3 x5 _ hH)

/-- The negative branch's output. -/
theorem out9_rows (o : ℕ) (H : Mat 16384 256) (x0 : Vec Ideal S1024x2048 .f32) (x1 : Vec Ideal S2048x256 .f32)
    (x2 : Vec Ideal S256 .f32) (x3 x4 : Vec Ideal S1024x256 .f32) (x5 : Vec Ideal S256x256 .f32) (x6 : Vec Ideal S256 .f32)
    (hH : RowsOf o H x4) : RowsOf o (embed H x5 x6) (out0_9 x0 x1 x2 x3 x4 x5 x6) := by
  unfold out0_9
  rw [View.canon_unit_zero hz2]
  simp only [View.ld_unit_zero (S := S256x256) hz2, View.ld_unit_zero (S := S1024x256) hz2, View.ld_unit_zero (S := S256) hz1]
  rw [Body.pay4_eq]
  exact unitRows_rows o _ _ (affine_rows o H x4 x5 _ hH)

/-- The packed margin tests of the block. -/
theorem out10_apply (o : ℕ) (X : Mat 16384 2048) (Hp Hn : Mat 16384 256) (x0 : Vec Ideal S1024x2048 .f32)
    (x1 : Vec Ideal S2048x256 .f32) (x2 : Vec Ideal S256 .f32) (x3 x4 : Vec Ideal S1024x256 .f32) (x5 : Vec Ideal S256x256 .f32)
    (x6 : Vec Ideal S256 .f32) (h0 : RowsOf o X x0) (h3 : RowsOf o Hp x3) (h4 : RowsOf o Hn x4) (a : Fin 8) (b : Fin 128)
    (ho : o + (a.val * 128 + b.val) < 16384) :
    out0_10 x0 x1 x2 x3 x4 x5 x6 (ix2 a b)
      = (wins (Ideal.ofBits .f32 εw) (Ideal.ofBits .f32 μw) (embed X x1 x2) (embed Hp x5 x6) (embed Hn x5 x6)
          (⟨o + (a.val * 128 + b.val), ho⟩ : Fin 16384)).setWidth 32 := by
  unfold out0_10
  rw [View.canon_unit_zero hz2]
  simp only [View.ld_unit_zero (S := S1024x2048) hz2, View.ld_unit_zero (S := S2048x256) hz2, View.ld_unit_zero (S := S256) hz1,
    View.ld_unit_zero (S := S256x256) hz2, View.ld_unit_zero (S := S1024x256) hz2]
  unfold k0_pay5
  refine (Body.pay1_apply _ _ _ a b).trans ?_
  rw [Body.pay2_eq, Body.pay3_eq, Body.pay4_eq]
  exact congrArg (BitVec.setWidth 32) (wins_rows _ _ o (embed X x1 x2) (embed Hp x5 x6) (embed Hn x5 x6) _ _ _
    (unitRows_rows o _ _ (affine_rows o X x0 x1 _ h0)) (unitRows_rows o _ _ (affine_rows o Hp x3 x5 _ h3))
    (unitRows_rows o _ _ (affine_rows o Hn x4 x5 _ h4)) ⟨a.val * 128 + b.val, by have := a.isLt; have := b.isLt; omega⟩ ho)

end Cert.KernelIdeal.Blocks

end
-- ==== Proof.KernelPrefix.lean ====
/-
  The host lines before the kernel's launch: the two arrays of hidden features the kernel stages are the reference's
  hidden-feature function (first layer, batch normalisation, ReLU) of the attribute arrays, weights and statistics
  parameters — the same operations in the same order in both programs.
-/
import proofs.«109221_j3925600108806_2_alg».proof.Proof.Gen.KernelIdeal.Frame
import proofs.«109221_j3925600108806_2_alg».proof.Proof.Gen.ReferenceIdeal.Read
import Idealize.ShloMosaic.Lib.StableHlo.Run

set_option maxRecDepth 16384

noncomputable section

namespace Cert.KernelIdeal.Prefix

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

set_option maxHeartbeats 16000000 in
/-- The hidden features of the positive attributes, as the region finds them. -/
theorem V_hp (c : Dev nD) : (V m c main_v29 : S16384x256.Idx → EReal)
    = Cert.ReferenceIdeal.Read.val_main_v33 (F := Ideal) (m ((c : Thread nD τ).loc main_arg1)) (m ((c : Thread nD τ).loc main_arg5))
        (m ((c : Thread nD τ).loc main_arg6)) (m ((c : Thread nD τ).loc main_arg7)) (m ((c : Thread nD τ).loc main_arg8)) := by
  dsimp only [Gen.V, Gen.V0]
  simp only [Gen.hostOps0, Gen.hostOps0_1, Gen.hostOps0_2, Gen.hostOps0_3, List.flatten_cons, List.flatten_nil, List.append_nil,
    List.cons_append, List.nil_append]
  after_results_simp <;> rfl

set_option maxHeartbeats 16000000 in
/-- The hidden features of the negative attributes, as the region finds them. -/
theorem V_hn (c : Dev nD) : (V m c main_v59 : S16384x256.Idx → EReal)
    = Cert.ReferenceIdeal.Read.val_main_v33 (F := Ideal) (m ((c : Thread nD τ).loc main_arg2)) (m ((c : Thread nD τ).loc main_arg5))
        (m ((c : Thread nD τ).loc main_arg6)) (m ((c : Thread nD τ).loc main_arg7)) (m ((c : Thread nD τ).loc main_arg8)) := by
  dsimp only [Gen.V, Gen.V0]
  simp only [Gen.hostOps0, Gen.hostOps0_1, Gen.hostOps0_2, Gen.hostOps0_3, List.flatten_cons, List.flatten_nil, List.append_nil,
    List.cons_append, List.nil_append]
  after_results_simp <;> rfl

end Cert.KernelIdeal.Prefix

end
-- ==== Proof.KernelValue.lean ====
/-
  The kernel program's four results as the target functions of its arguments.

  The sixteen grid points' row blocks tile each of the three embedding arrays, and their 8 × 128 blocks tile the
  128 × 128 array of packed margin tests; every block is the matching block of one whole-array function, so each array
  ends holding that function. The packed tests are the reshaped vector of 16384 tests, and the host's sum of them after
  the kernel is the count.
-/
import proofs.«109221_j3925600108806_2_alg».proof.Proof.Gen.KernelIdeal.Frame
import proofs.«109221_j3925600108806_2_alg».proof.Proof.KernelBlocks
import proofs.«109221_j3925600108806_2_alg».proof.Proof.KernelPrefix
import Idealize.ShloMosaic.Lib.Pipeline.Value
import Idealize.ShloMosaic.Lib.StableHlo.Run

set_option maxRecDepth 16384

noncomputable section

namespace Cert.KernelIdeal.Out

open Idealize.ShloMosaic Idealize.ShloMosaic.TcCoe Idealize.SL.Sem Idealize.ShloMosaic.ValueIdx Idealize.ShloMosaic.StableHlo
open Idealize.ShloMosaic.Pipeline (Dat Cfg Window)
open Cert.KernelIdeal Cert.KernelIdeal.Gen Cert.Embedding Cert.Target

variable (m : (ℓ : Loc nD τ sig) → Buf (Elt Ideal) ℓ) (ρ : Dev nD → PrngReg)

/-! ## The index maps over the grid -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 1) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 1) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)
theorem idx8 : ∀ t : Fin cfg0.N, win0_8.index t (0 : Fin 2) = t.val ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)
theorem idx10 : ∀ t : Fin cfg0.N, win0_10.index t (0 : Fin 2) = t.val ∧ win0_10.index t (1 : Fin 2) = 0 :=
  (by decide +kernel : ∀ t : Fin grid0.N, _)

theorem t_lt (t : Fin cfg0.N) : t.val < 16 := t.isLt

/-! ## The input blocks of a point -/

theorem rows0 (c : Dev nD) (t : Fin cfg0.N) :
    RowsOf (M := 16384) (R := 1024) (N := 2048) (t.val * 1024) (V m c main_arg0) (iblk m c 0 t) := by
  intro p q h
  obtain ⟨e0, e1⟩ := idx0 t
  show V m c main_arg0 (((cfg0.win 0).blk t).view.emb (ix2 p q)) = V m c main_arg0 (ix2 (⟨t.val * 1024 + p.val, h⟩ : Fin 16384) q)
  refine congrArg _ (funext fun a => Fin.ext ?_)
  match a with
  | ⟨0, _⟩ => show win0_0.index t (0 : Fin 2) * 1024 + 1 * p.val = t.val * 1024 + p.val; omega
  | ⟨1, _⟩ => show win0_0.index t (1 : Fin 2) * 2048 + 1 * q.val = q.val; omega

theorem rows3 (c : Dev nD) (t : Fin cfg0.N) :
    RowsOf (M := 16384) (R := 1024) (N := 256) (t.val * 1024) (V m c main_v29) (iblk m c 3 t) := by
  intro p q h
  obtain ⟨e0, e1⟩ := idx3 t
  show V m c main_v29 (((cfg0.win 3).blk t).view.emb (ix2 p q)) = V m c main_v29 (ix2 (⟨t.val * 1024 + p.val, h⟩ : Fin 16384) q)
  refine congrArg _ (funext fun a => Fin.ext ?_)
  match a with
  | ⟨0, _⟩ => show win0_3.index t (0 : Fin 2) * 1024 + 1 * p.val = t.val * 1024 + p.val; omega
  | ⟨1, _⟩ => show win0_3.index t (1 : Fin 2) * 256 + 1 * q.val = q.val; omega

theorem rows4 (c : Dev nD) (t : Fin cfg0.N) :
    RowsOf (M := 16384) (R := 1024) (N := 256) (t.val * 1024) (V m c main_v59) (iblk m c 4 t) := by
  intro p q h
  obtain ⟨e0, e1⟩ := idx4 t
  show V m c main_v59 (((cfg0.win 4).blk t).view.emb (ix2 p q)) = V m c main_v59 (ix2 (⟨t.val * 1024 + p.val, h⟩ : Fin 16384) q)
  refine congrArg _ (funext fun a => Fin.ext ?_)
  match a with
  | ⟨0, _⟩ => show win0_4.index t (0 : Fin 2) * 1024 + 1 * p.val = t.val * 1024 + p.val; omega
  | ⟨1, _⟩ => show win0_4.index t (1 : Fin 2) * 256 + 1 * q.val = q.val; omega

theorem blk1 (c : Dev nD) (t : Fin cfg0.N) : (iblk m c 1 t : S2048x256.Idx → EReal) = m ((c : Thread nD τ).loc main_arg3) := by
  obtain ⟨e0, e1⟩ := idx1 t
  refine Eq.trans ?_ (V_main_arg3 m c)
  funext y
  show V m c main_arg3 (((cfg0.win 1).blk t).view.emb y) = V m c main_arg3 y
  refine congrArg _ (funext fun a => Fin.ext ?_)
  match a with
  | ⟨0, _⟩ => show win0_1.index t (0 : Fin 2) * 2048 + 1 * (y 0).val = (y 0).val; omega
  | ⟨1, _⟩ => show win0_1.index t (1 : Fin 2) * 256 + 1 * (y 1).val = (y 1).val; omega

theorem blk2 (c : Dev nD) (t : Fin cfg0.N) : (iblk m c 2 t : S256.Idx → EReal) = m ((c : Thread nD τ).loc main_arg4) := by
  have e0 := idx2 t
  refine Eq.trans ?_ (V_main_arg4 m c)
  funext y
  show V m c main_arg4 (((cfg0.win 2).blk t).view.emb y) = V m c main_arg4 y
  refine congrArg _ (funext fun a => Fin.ext ?_)
  match a with
  | ⟨0, _⟩ => show win0_2.index t (0 : Fin 1) * 256 + 1 * (y 0).val = (y 0).val; omega

theorem blk5 (c : Dev nD) (t : Fin cfg0.N) : (iblk m c 5 t : S256x256.Idx → EReal) = m ((c : Thread nD τ).loc main_arg9) := by
  obtain ⟨e0, e1⟩ := idx5 t
  refine Eq.trans ?_ (V_main_arg9 m c)
  funext y
  show V m c main_arg9 (((cfg0.win 5).blk t).view.emb y) = V m c main_arg9 y
  refine congrArg _ (funext fun a => Fin.ext ?_)
  match a with
  | ⟨0, _⟩ => show win0_5.index t (0 : Fin 2) * 256 + 1 * (y 0).val = (y 0).val; omega
  | ⟨1, _⟩ => show win0_5.index t (1 : Fin 2) * 256 + 1 * (y 1).val = (y 1).val; omega

theorem blk6 (c : Dev nD) (t : Fin cfg0.N) : (iblk m c 6 t : S256.Idx → EReal) = m ((c : Thread nD τ).loc main_arg10) := by
  have e0 := idx6 t
  refine Eq.trans ?_ (V_main_arg10 m c)
  funext y
  show V m c main_arg10 (((cfg0.win 6).blk t).view.emb y) = V m c main_arg10 y
  refine congrArg _ (funext fun a => Fin.ext ?_)
  match a with
  | ⟨0, _⟩ => show win0_6.index t (0 : Fin 1) * 256 + 1 * (y 0).val = (y 0).val; omega

/-! ## The whole-array functions -/

/-- The hidden features of an attribute array, by the first layer's weights and the normalisation's parameters. -/
abbrev hid (c : Dev nD) (x : S16384x40.Idx → EReal) : Mat 16384 256 :=
  Cert.ReferenceIdeal.Read.val_main_v33 (F := Ideal) x (m ((c : Thread nD τ).loc main_arg5)) (m ((c : Thread nD τ).loc main_arg6))
    (m ((c : Thread nD τ).loc main_arg7)) (m ((c : Thread nD τ).loc main_arg8))

/-- The image embeddings, and the embeddings of the positive and the negative attributes. -/
abbrev anchor (c : Dev nD) : Mat 16384 256 :=
  embed (K := 2048) (m ((c : Thread nD τ).loc main_arg0)) (m ((c : Thread nD τ).loc main_arg3)) (m ((c : Thread nD τ).loc main_arg4))
abbrev pos (c : Dev nD) : Mat 16384 256 :=
  embed (K := 256) (hid m c (m ((c : Thread nD τ).loc main_arg1))) (m ((c : Thread nD τ).loc main_arg9)) (m ((c : Thread nD τ).loc main_arg10))
abbrev neg (c : Dev nD) : Mat 16384 256 :=
  embed (K := 256) (hid m c (m ((c : Thread nD τ).loc main_arg2))) (m ((c : Thread nD τ).loc main_arg9)) (m ((c : Thread nD τ).loc main_arg10))

theorem embed_congr {K : ℕ} {x x' : Mat 16384 K} {w w' : Mat K 256} {b b' : (⟨1, ![256]⟩ : Shape).Idx → EReal}
    (hx : x = x') (hw : w = w') (hb : b = b') : embed x w b = embed x' w' b' := by
  subst hx hw hb; rfl

/-! ## What each point writes back -/

theorem flushed7 (c : Dev nD) (t : Fin cfg0.N) :
    (dats m 0 c).flushed 7 t = ((cfg0.win 7).blk t).view.read (Elt Ideal) (anchor m c) := by
  show (cfg0.win 7).cut (grid0.coords t) ((dats m 0 c).after 7 t) = _
  rw [after0_7]
  funext y
  show out0_7 (iblk m c 0 t) (iblk m c 1 t) (iblk m c 2 t) (iblk m c 3 t) (iblk m c 4 t) (iblk m c 5 t) (iblk m c 6 t) y = anchor m c (((cfg0.win 7).blk t).view.emb y)
  obtain ⟨p, q, rfl⟩ : ∃ (p : Fin 1024) (q : Fin 256), y = ix2 p q := ⟨y 0, y 1, eq_ix2 y⟩
  have ht := t_lt t
  have hp : t.val * 1024 + p.val < 16384 := by have := p.isLt; omega
  obtain ⟨e0, e1⟩ := idx7 t
  have hidx : ((cfg0.win 7).blk t).view.emb (ix2 p q) = ix2 (⟨t.val * 1024 + p.val, hp⟩ : Fin 16384) q := by
    funext a; apply Fin.ext
    match a with
    | ⟨0, _⟩ => show win0_7.index t (0 : Fin 2) * 1024 + 1 * p.val = t.val * 1024 + p.val; omega
    | ⟨1, _⟩ => show win0_7.index t (1 : Fin 2) * 256 + 1 * q.val = q.val; omega
  rw [hidx]
  refine (Blocks.out7_rows (t.val * 1024) (V m c main_arg0) (iblk m c 0 t) (iblk m c 1 t) (iblk m c 2 t) (iblk m c 3 t) (iblk m c 4 t) (iblk m c 5 t) (iblk m c 6 t) (rows0 m c t) p q hp).trans ?_
  exact congrFun (embed_congr (K := 2048) (V_main_arg0 m c) (blk1 m c t) (blk2 m c t)) _

theorem flushed8 (c : Dev nD) (t : Fin cfg0.N) :
    (dats m 0 c).flushed 8 t = ((cfg0.win 8).blk t).view.read (Elt Ideal) (pos m c) := by
  show (cfg0.win 8).cut (grid0.coords t) ((dats m 0 c).after 8 t) = _
  rw [after0_8]
  funext y
  show out0_8 (iblk m c 0 t) (iblk m c 1 t) (iblk m c 2 t) (iblk m c 3 t) (iblk m c 4 t) (iblk m c 5 t) (iblk m c 6 t) y = pos m c (((cfg0.win 8).blk t).view.emb y)
  obtain ⟨p, q, rfl⟩ : ∃ (p : Fin 1024) (q : Fin 256), y = ix2 p q := ⟨y 0, y 1, eq_ix2 y⟩
  have ht := t_lt t
  have hp : t.val * 1024 + p.val < 16384 := by have := p.isLt; omega
  obtain ⟨e0, e1⟩ := idx8 t
  have hidx : ((cfg0.win 8).blk t).view.emb (ix2 p q) = ix2 (⟨t.val * 1024 + p.val, hp⟩ : Fin 16384) q := by
    funext a; apply Fin.ext
    match a with
    | ⟨0, _⟩ => show win0_8.index t (0 : Fin 2) * 1024 + 1 * p.val = t.val * 1024 + p.val; omega
    | ⟨1, _⟩ => show win0_8.index t (1 : Fin 2) * 256 + 1 * q.val = q.val; omega
  rw [hidx]
  refine (Blocks.out8_rows (t.val * 1024) (V m c main_v29) (iblk m c 0 t) (iblk m c 1 t) (iblk m c 2 t) (iblk m c 3 t) (iblk m c 4 t) (iblk m c 5 t) (iblk m c 6 t) (rows3 m c t) p q hp).trans ?_
  exact congrFun (embed_congr (K := 256) (Prefix.V_hp m c) (blk5 m c t) (blk6 m c t)) _

theorem flushed9 (c : Dev nD) (t : Fin cfg0.N) :
    (dats m 0 c).flushed 9 t = ((cfg0.win 9).blk t).view.read (Elt Ideal) (neg m c) := by
  show (cfg0.win 9).cut (grid0.coords t) ((dats m 0 c).after 9 t) = _
  rw [after0_9]
  funext y
  show out0_9 (iblk m c 0 t) (iblk m c 1 t) (iblk m c 2 t) (iblk m c 3 t) (iblk m c 4 t) (iblk m c 5 t) (iblk m c 6 t) y = neg m c (((cfg0.win 9).blk t).view.emb y)
  obtain ⟨p, q, rfl⟩ : ∃ (p : Fin 1024) (q : Fin 256), y = ix2 p q := ⟨y 0, y 1, eq_ix2 y⟩
  have ht := t_lt t
  have hp : t.val * 1024 + p.val < 16384 := by have := p.isLt; omega
  obtain ⟨e0, e1⟩ := idx9 t
  have hidx : ((cfg0.win 9).blk t).view.emb (ix2 p q) = ix2 (⟨t.val * 1024 + p.val, hp⟩ : Fin 16384) q := by
    funext a; apply Fin.ext
    match a with
    | ⟨0, _⟩ => show win0_9.index t (0 : Fin 2) * 1024 + 1 * p.val = t.val * 1024 + p.val; omega
    | ⟨1, _⟩ => show win0_9.index t (1 : Fin 2) * 256 + 1 * q.val = q.val; omega
  rw [hidx]
  refine (Blocks.out9_rows (t.val * 1024) (V m c main_v59) (iblk m c 0 t) (iblk m c 1 t) (iblk m c 2 t) (iblk m c 3 t) (iblk m c 4 t) (iblk m c 5 t) (iblk m c 6 t) (rows4 m c t) p q hp).trans ?_
  exact congrFun (embed_congr (K := 256) (Prefix.V_hn m c) (blk5 m c t) (blk6 m c t)) _

/-- 16384 words fill 128 rows of 128. -/
theorem packCast : (⟨1, ![16384]⟩ : Shape).ShapeCasts ⟨2, ![128, 128]⟩ := by decide

/-- The margin tests laid out as 128 rows of 128: test `128 r + b` at `(r, b)`. -/
abbrev packed (c : Dev nD) : S128x128.Idx → BitVec 32 :=
  shapeCast ⟨2, ![128, 128]⟩ (marks (anchor m c) (pos m c) (neg m c)) packCast

theorem flushed10 (c : Dev nD) (t : Fin cfg0.N) :
    (dats m 0 c).flushed 10 t = ((cfg0.win 10).blk t).view.read (Elt Ideal) (packed m c) := by
  show (cfg0.win 10).cut (grid0.coords t) ((dats m 0 c).after 10 t) = _
  rw [after0_10]
  funext y
  show out0_10 (iblk m c 0 t) (iblk m c 1 t) (iblk m c 2 t) (iblk m c 3 t) (iblk m c 4 t) (iblk m c 5 t) (iblk m c 6 t) y = packed m c (((cfg0.win 10).blk t).view.emb y)
  obtain ⟨a, b, rfl⟩ : ∃ (a : Fin 8) (b : Fin 128), y = ix2 a b := ⟨y 0, y 1, eq_ix2 y⟩
  have ht := t_lt t
  have ha := a.isLt
  have hb := b.isLt
  have ho : t.val * 1024 + (a.val * 128 + b.val) < 16384 := by omega
  have hr : t.val * 8 + a.val < 128 := by omega
  obtain ⟨e0, e1⟩ := idx10 t
  have hidx : ((cfg0.win 10).blk t).view.emb (ix2 a b) = ix2 (⟨t.val * 8 + a.val, hr⟩ : Fin 128) b := by
    funext d; apply Fin.ext
    match d with
    | ⟨0, _⟩ => show win0_10.index t (0 : Fin 2) * 8 + 1 * a.val = t.val * 8 + a.val; omega
    | ⟨1, _⟩ => show win0_10.index t (1 : Fin 2) * 128 + 1 * b.val = b.val; omega
  have hpk : packed m c (ix2 (⟨t.val * 8 + a.val, hr⟩ : Fin 128) b)
      = marks (anchor m c) (pos m c) (neg m c) (ix1 (⟨t.val * 1024 + (a.val * 128 + b.val), ho⟩ : Fin 16384)) :=
    shapeCast_apply _ packCast _ _ (by
      rw [Shape.rowMajor_val_two, Shape.rowMajor_val_one]
      show t.val * 1024 + (a.val * 128 + b.val) = (t.val * 8 + a.val) * 128 + b.val
      omega)
  rw [hidx, hpk, marks_apply]
  refine (Blocks.out10_apply (t.val * 1024) (V m c main_arg0) (V m c main_v29) (V m c main_v59) (iblk m c 0 t) (iblk m c 1 t) (iblk m c 2 t) (iblk m c 3 t) (iblk m c 4 t) (iblk m c 5 t) (iblk m c 6 t)
    (rows0 m c t) (rows3 m c t) (rows4 m c t) a b ho).trans ?_
  rw [embed_congr (K := 2048) (V_main_arg0 m c) (blk1 m c t) (blk2 m c t),
    embed_congr (K := 256) (Prefix.V_hp m c) (blk5 m c t) (blk6 m c t),
    embed_congr (K := 256) (Prefix.V_hn m c) (blk5 m c t) (blk6 m c t)]

/-! ## The blocks tile the arrays -/

theorem mem_blk7 (t : Fin cfg0.N) (i : S16384x256.Idx) :
    i ∈ ((cfg0.win 7).blk t).view.set ↔ ∀ a : Fin 2, win0_7.index t a * S1024x256.size a ≤ (i a).val
      ∧ (i a).val < win0_7.index t a * S1024x256.size a + S1024x256.size a := by
  show i ∈ ((View.whole main_v60_0).slice (win0_7.rect t)).set ↔ _
  rw [View.set_slice_whole, Rect.mem_set_unit]
  exact Iff.rfl

theorem cover7 (i : S16384x256.Idx) :
    ∃ t : Fin cfg0.N, (cfg0.win 7).flush t = true ∧ i ∈ ((cfg0.win 7).blk t).view.set := by
  have hi0 : (i 0).val < 16384 := (i 0).isLt
  have hi1 : (i 1).val < 256 := (i 1).isLt
  have hlt : (i 0).val / 1024 < 16 := by omega
  obtain ⟨e0, e1⟩ := idx7 (⟨(i 0).val / 1024, hlt⟩ : Fin cfg0.N)
  refine ⟨⟨(i 0).val / 1024, hlt⟩, flush0_7 _, ?_⟩
  rw [mem_blk7]
  intro a
  match a with
  | ⟨0, _⟩ =>
    show win0_7.index ⟨(i 0).val / 1024, hlt⟩ (0 : Fin 2) * 1024 ≤ (i 0).val
      ∧ (i 0).val < win0_7.index ⟨(i 0).val / 1024, hlt⟩ (0 : Fin 2) * 1024 + 1024
    rw [e0]; show (i 0).val / 1024 * 1024 ≤ (i 0).val ∧ (i 0).val < (i 0).val / 1024 * 1024 + 1024; omega
  | ⟨1, _⟩ =>
    show win0_7.index ⟨(i 0).val / 1024, hlt⟩ (1 : Fin 2) * 256 ≤ (i 1).val
      ∧ (i 1).val < win0_7.index ⟨(i 0).val / 1024, hlt⟩ (1 : Fin 2) * 256 + 256
    rw [e1]; omega

theorem mem_blk8 (t : Fin cfg0.N) (i : S16384x256.Idx) :
    i ∈ ((cfg0.win 8).blk t).view.set ↔ ∀ a : Fin 2, win0_8.index t a * S1024x256.size a ≤ (i a).val
      ∧ (i a).val < win0_8.index t a * S1024x256.size a + S1024x256.size a := by
  show i ∈ ((View.whole main_v60_1).slice (win0_8.rect t)).set ↔ _
  rw [View.set_slice_whole, Rect.mem_set_unit]
  exact Iff.rfl

theorem cover8 (i : S16384x256.Idx) :
    ∃ t : Fin cfg0.N, (cfg0.win 8).flush t = true ∧ i ∈ ((cfg0.win 8).blk t).view.set := by
  have hi0 : (i 0).val < 16384 := (i 0).isLt
  have hi1 : (i 1).val < 256 := (i 1).isLt
  have hlt : (i 0).val / 1024 < 16 := by omega
  obtain ⟨e0, e1⟩ := idx8 (⟨(i 0).val / 1024, hlt⟩ : Fin cfg0.N)
  refine ⟨⟨(i 0).val / 1024, hlt⟩, flush0_8 _, ?_⟩
  rw [mem_blk8]
  intro a
  match a with
  | ⟨0, _⟩ =>
    show win0_8.index ⟨(i 0).val / 1024, hlt⟩ (0 : Fin 2) * 1024 ≤ (i 0).val
      ∧ (i 0).val < win0_8.index ⟨(i 0).val / 1024, hlt⟩ (0 : Fin 2) * 1024 + 1024
    rw [e0]; show (i 0).val / 1024 * 1024 ≤ (i 0).val ∧ (i 0).val < (i 0).val / 1024 * 1024 + 1024; omega
  | ⟨1, _⟩ =>
    show win0_8.index ⟨(i 0).val / 1024, hlt⟩ (1 : Fin 2) * 256 ≤ (i 1).val
      ∧ (i 1).val < win0_8.index ⟨(i 0).val / 1024, hlt⟩ (1 : Fin 2) * 256 + 256
    rw [e1]; omega

theorem mem_blk9 (t : Fin cfg0.N) (i : S16384x256.Idx) :
    i ∈ ((cfg0.win 9).blk t).view.set ↔ ∀ a : Fin 2, win0_9.index t a * S1024x256.size a ≤ (i a).val
      ∧ (i a).val < win0_9.index t a * S1024x256.size a + S1024x256.size a := by
  show i ∈ ((View.whole main_v60_2).slice (win0_9.rect t)).set ↔ _
  rw [View.set_slice_whole, Rect.mem_set_unit]
  exact Iff.rfl

theorem cover9 (i : S16384x256.Idx) :
    ∃ t : Fin cfg0.N, (cfg0.win 9).flush t = true ∧ i ∈ ((cfg0.win 9).blk t).view.set := by
  have hi0 : (i 0).val < 16384 := (i 0).isLt
  have hi1 : (i 1).val < 256 := (i 1).isLt
  have hlt : (i 0).val / 1024 < 16 := by omega
  obtain ⟨e0, e1⟩ := idx9 (⟨(i 0).val / 1024, hlt⟩ : Fin cfg0.N)
  refine ⟨⟨(i 0).val / 1024, hlt⟩, flush0_9 _, ?_⟩
  rw [mem_blk9]
  intro a
  match a with
  | ⟨0, _⟩ =>
    show win0_9.index ⟨(i 0).val / 1024, hlt⟩ (0 : Fin 2) * 1024 ≤ (i 0).val
      ∧ (i 0).val < win0_9.index ⟨(i 0).val / 1024, hlt⟩ (0 : Fin 2) * 1024 + 1024
    rw [e0]; show (i 0).val / 1024 * 1024 ≤ (i 0).val ∧ (i 0).val < (i 0).val / 1024 * 1024 + 1024; omega
  | ⟨1, _⟩ =>
    show win0_9.index ⟨(i 0).val / 1024, hlt⟩ (1 : Fin 2) * 256 ≤ (i 1).val
      ∧ (i 1).val < win0_9.index ⟨(i 0).val / 1024, hlt⟩ (1 : Fin 2) * 256 + 256
    rw [e1]; omega

theorem mem_blk10 (t : Fin cfg0.N) (i : S128x128.Idx) :
    i ∈ ((cfg0.win 10).blk t).view.set ↔ ∀ a : Fin 2, win0_10.index t a * S8x128.size a ≤ (i a).val
      ∧ (i a).val < win0_10.index t a * S8x128.size a + S8x128.size a := by
  show i ∈ ((View.whole main_v60_3).slice (win0_10.rect t)).set ↔ _
  rw [View.set_slice_whole, Rect.mem_set_unit]
  exact Iff.rfl

theorem cover10 (i : S128x128.Idx) :
    ∃ t : Fin cfg0.N, (cfg0.win 10).flush t = true ∧ i ∈ ((cfg0.win 10).blk t).view.set := by
  have hi0 : (i 0).val < 128 := (i 0).isLt
  have hi1 : (i 1).val < 128 := (i 1).isLt
  have hlt : (i 0).val / 8 < 16 := by omega
  obtain ⟨e0, e1⟩ := idx10 (⟨(i 0).val / 8, hlt⟩ : Fin cfg0.N)
  refine ⟨⟨(i 0).val / 8, hlt⟩, flush0_10 _, ?_⟩
  rw [mem_blk10]
  intro a
  match a with
  | ⟨0, _⟩ =>
    show win0_10.index ⟨(i 0).val / 8, hlt⟩ (0 : Fin 2) * 8 ≤ (i 0).val
      ∧ (i 0).val < win0_10.index ⟨(i 0).val / 8, hlt⟩ (0 : Fin 2) * 8 + 8
    rw [e0]; show (i 0).val / 8 * 8 ≤ (i 0).val ∧ (i 0).val < (i 0).val / 8 * 8 + 8; omega
  | ⟨1, _⟩ =>
    show win0_10.index ⟨(i 0).val / 8, hlt⟩ (1 : Fin 2) * 128 ≤ (i 1).val
      ∧ (i 1).val < win0_10.index ⟨(i 0).val / 8, hlt⟩ (1 : Fin 2) * 128 + 128
    rw [e1]; omega

/-! ## The arrays after the region -/

theorem final7 (c : Dev nD) : (dats m 0 c).arrAt 7 cfg0.N = anchor m c :=
  (dats m 0 c).arrAt_eq_of_cover 7 (anchor m c) (fun t _ => flushed7 m c t) cover7
theorem final8 (c : Dev nD) : (dats m 0 c).arrAt 8 cfg0.N = pos m c :=
  (dats m 0 c).arrAt_eq_of_cover 8 (pos m c) (fun t _ => flushed8 m c t) cover8
theorem final9 (c : Dev nD) : (dats m 0 c).arrAt 9 cfg0.N = neg m c :=
  (dats m 0 c).arrAt_eq_of_cover 9 (neg m c) (fun t _ => flushed9 m c t) cover9
theorem final10 (c : Dev nD) : (dats m 0 c).arrAt 10 cfg0.N = packed m c :=
  (dats m 0 c).arrAt_eq_of_cover 10 (packed m c) (fun t _ => flushed10 m c t) cover10

end Cert.KernelIdeal.Out

end
-- ==== Proof.KernelRun.lean ====
/-
  The kernel program's run, read: after the region the three embedding arrays hold the target functions, and the host
  lines after the region sum the packed margin tests — the reshaped vector of tests — into the count.
-/
import proofs.«109221_j3925600108806_2_alg».proof.Proof.KernelValue
import proofs.«109221_j3925600108806_2_alg».proof.Proof.LibWordTotal

set_option maxRecDepth 16384

noncomputable section

namespace Cert.KernelIdeal.Run

open Idealize.ShloMosaic Idealize.ShloMosaic.TcCoe Idealize.SL.Sem Idealize.ShloMosaic.ValueIdx Idealize.ShloMosaic.StableHlo
open Idealize.ShloMosaic.Pipeline (Dat Cfg Window)
open Cert.KernelIdeal Cert.KernelIdeal.Gen Cert.Embedding Cert.Target Cert.KernelIdeal.Out

variable (m : (ℓ : Loc nD τ sig) → Buf (Elt Ideal) ℓ) (ρ : Dev nD → PrngReg)

/-- The host's sum of the packed tests after the region is the count of winning rows. -/
theorem tail_eq (c : Dev nD) :
    Pipeline.afterTail₀ cfgs (dats m) 0 (V0 m) [hostOps1] c main_v62 = correct (anchor m c) (pos m c) (neg m c) := by
  unfold Pipeline.afterTail₀
  show StableHlo.after hostOps1 _ (Proc.devRef .tc main_v62) = _
  after_results
  rw [show Pipeline.withArrays (cfgs 0).spec c (V0 m c) (fun w => (dats m 0 c).arrAt w (cfgs 0).N) (Proc.devRef .tc main_v60_3) = packed m c from
    (Pipeline.withArrays_arr spec0 launch0.win.arr_inj c _ _ 10).trans (final10 m c)]
  show shapeCast ⟨1, ![1]⟩ (Host.reduce IntOp.addi (packed m c) (constantI ⟨0, ![]⟩ 32 0#32) reducesTo_S128x128_S_d0_1 h_S_)
    shapeCasts_S_S1 = _
  rw [Count.hostTotal]
  exact Count.total_shapeCast _ _

/-! ## The frame run's post, read result by result -/

theorem post_anchor (r : PUnit × MemSt nD τ sig (Elt Ideal)) (h : Pipeline.FramePost cfgs (dats m) 0 (Pipeline.afterTail₀ cfgs (dats m) 0 (V0 m) [hostOps1]) r) (c : Dev nD) :
    r.2.mem ((c : Thread nD τ).loc main_v60_0) = anchor m c := ((h c).1 7).trans (final7 m c)
theorem post_pos (r : PUnit × MemSt nD τ sig (Elt Ideal)) (h : Pipeline.FramePost cfgs (dats m) 0 (Pipeline.afterTail₀ cfgs (dats m) 0 (V0 m) [hostOps1]) r) (c : Dev nD) :
    r.2.mem ((c : Thread nD τ).loc main_v60_1) = pos m c := ((h c).1 8).trans (final8 m c)
theorem post_neg (r : PUnit × MemSt nD τ sig (Elt Ideal)) (h : Pipeline.FramePost cfgs (dats m) 0 (Pipeline.afterTail₀ cfgs (dats m) 0 (V0 m) [hostOps1]) r) (c : Dev nD) :
    r.2.mem ((c : Thread nD τ).loc main_v60_2) = neg m c := ((h c).1 9).trans (final9 m c)
theorem post_count (r : PUnit × MemSt nD τ sig (Elt Ideal)) (h : Pipeline.FramePost cfgs (dats m) 0 (Pipeline.afterTail₀ cfgs (dats m) 0 (V0 m) [hostOps1]) r) (c : Dev nD) :
    r.2.mem ((c : Thread nD τ).loc main_v62) = correct (anchor m c) (pos m c) (neg m c) :=
  ((h c).2 main_v62 (Pipeline.mem_restRefs_of main_v62 (by decide) (by decide))).trans (tail_eq m c)
theorem kept0 (r : PUnit × MemSt nD τ sig (Elt Ideal)) (h : Pipeline.FramePost cfgs (dats m) 0 (Pipeline.afterTail₀ cfgs (dats m) 0 (V0 m) [hostOps1]) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))
theorem kept1 (r : PUnit × MemSt nD τ sig (Elt Ideal)) (h : Pipeline.FramePost cfgs (dats m) 0 (Pipeline.afterTail₀ cfgs (dats m) 0 (V0 m) [hostOps1]) r) (c : Dev nD) :
    r.2.mem ((c : Thread nD τ).loc main_arg1) = m ((c : Thread nD τ).loc main_arg1) :=
  ((h c).2 main_arg1 (Pipeline.mem_restRefs_of main_arg1 (by decide) (by decide))).trans (W_main_arg1 m (dats m) c)
theorem kept2 (r : PUnit × MemSt nD τ sig (Elt Ideal)) (h : Pipeline.FramePost cfgs (dats m) 0 (Pipeline.afterTail₀ cfgs (dats m) 0 (V0 m) [hostOps1]) r) (c : Dev nD) :
    r.2.mem ((c : Thread nD τ).loc main_arg2) = m ((c : Thread nD τ).loc main_arg2) :=
  ((h c).2 main_arg2 (Pipeline.mem_restRefs_of main_arg2 (by decide) (by decide))).trans (W_main_arg2 m (dats m) c)
theorem kept3 (r : PUnit × MemSt nD τ sig (Elt Ideal)) (h : Pipeline.FramePost cfgs (dats m) 0 (Pipeline.afterTail₀ cfgs (dats m) 0 (V0 m) [hostOps1]) r) (c : Dev nD) :
    r.2.mem ((c : Thread nD τ).loc main_arg3) = m ((c : Thread nD τ).loc main_arg3) :=
  ((h c).1 1).trans (((dats m 0 c).arrAt_in 1 rfl _).trans ((A_eq m c 1).trans (V_main_arg3 m c)))
theorem kept4 (r : PUnit × MemSt nD τ sig (Elt Ideal)) (h : Pipeline.FramePost cfgs (dats m) 0 (Pipeline.afterTail₀ cfgs (dats m) 0 (V0 m) [hostOps1]) r) (c : Dev nD) :
    r.2.mem ((c : Thread nD τ).loc main_arg4) = m ((c : Thread nD τ).loc main_arg4) :=
  ((h c).1 2).trans (((dats m 0 c).arrAt_in 2 rfl _).trans ((A_eq m c 2).trans (V_main_arg4 m c)))
theorem kept5 (r : PUnit × MemSt nD τ sig (Elt Ideal)) (h : Pipeline.FramePost cfgs (dats m) 0 (Pipeline.afterTail₀ cfgs (dats m) 0 (V0 m) [hostOps1]) r) (c : Dev nD) :
    r.2.mem ((c : Thread nD τ).loc main_arg5) = m ((c : Thread nD τ).loc main_arg5) :=
  ((h c).2 main_arg5 (Pipeline.mem_restRefs_of main_arg5 (by decide) (by decide))).trans (W_main_arg5 m (dats m) c)
theorem kept6 (r : PUnit × MemSt nD τ sig (Elt Ideal)) (h : Pipeline.FramePost cfgs (dats m) 0 (Pipeline.afterTail₀ cfgs (dats m) 0 (V0 m) [hostOps1]) r) (c : Dev nD) :
    r.2.mem ((c : Thread nD τ).loc main_arg6) = m ((c : Thread nD τ).loc main_arg6) :=
  ((h c).2 main_arg6 (Pipeline.mem_restRefs_of main_arg6 (by decide) (by decide))).trans (W_main_arg6 m (dats m) c)
theorem kept7 (r : PUnit × MemSt nD τ sig (Elt Ideal)) (h : Pipeline.FramePost cfgs (dats m) 0 (Pipeline.afterTail₀ cfgs (dats m) 0 (V0 m) [hostOps1]) r) (c : Dev nD) :
    r.2.mem ((c : Thread nD τ).loc main_arg7) = m ((c : Thread nD τ).loc main_arg7) :=
  ((h c).2 main_arg7 (Pipeline.mem_restRefs_of main_arg7 (by decide) (by decide))).trans (W_main_arg7 m (dats m) c)
theorem kept8 (r : PUnit × MemSt nD τ sig (Elt Ideal)) (h : Pipeline.FramePost cfgs (dats m) 0 (Pipeline.afterTail₀ cfgs (dats m) 0 (V0 m) [hostOps1]) r) (c : Dev nD) :
    r.2.mem ((c : Thread nD τ).loc main_arg8) = m ((c : Thread nD τ).loc main_arg8) :=
  ((h c).2 main_arg8 (Pipeline.mem_restRefs_of main_arg8 (by decide) (by decide))).trans (W_main_arg8 m (dats m) c)
theorem kept9 (r : PUnit × MemSt nD τ sig (Elt Ideal)) (h : Pipeline.FramePost cfgs (dats m) 0 (Pipeline.afterTail₀ cfgs (dats m) 0 (V0 m) [hostOps1]) r) (c : Dev nD) :
    r.2.mem ((c : Thread nD τ).loc main_arg9) = m ((c : Thread nD τ).loc main_arg9) :=
  ((h c).1 5).trans (((dats m 0 c).arrAt_in 5 rfl _).trans ((A_eq m c 5).trans (V_main_arg9 m c)))
theorem kept10 (r : PUnit × MemSt nD τ sig (Elt Ideal)) (h : Pipeline.FramePost cfgs (dats m) 0 (Pipeline.afterTail₀ cfgs (dats m) 0 (V0 m) [hostOps1]) r) (c : Dev nD) :
    r.2.mem ((c : Thread nD τ).loc main_arg10) = m ((c : Thread nD τ).loc main_arg10) :=
  ((h c).1 6).trans (((dats m 0 c).arrAt_in 6 rfl _).trans ((A_eq m c 6).trans (V_main_arg10 m c)))

/-- Every weakly fair execution ends with the four results at the target functions and the arguments unchanged. -/
theorem run : θ_run defs (onTc (τ := τ) (main (F := Ideal))) ⟨m, fun _ => 0, ρ⟩ fun r => ∀ c : Dev nD,
      r.2.mem ((c : Thread nD τ).loc main_v60_0) = anchor m c
      ∧ r.2.mem ((c : Thread nD τ).loc main_v60_1) = pos m c
      ∧ r.2.mem ((c : Thread nD τ).loc main_v60_2) = neg m c
      ∧ r.2.mem ((c : Thread nD τ).loc main_v62) = correct (anchor m c) (pos m c) (neg m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨post_anchor m r h c, post_pos m r h c, post_neg m r h c, post_count m r h c,
      kept0 m r h c, kept1 m r h c, kept2 m r h c, kept3 m r h c, kept4 m r h c, kept5 m r h c, kept6 m r h c, kept7 m r h c, kept8 m r h c, kept9 m r h c, kept10 m r h c⟩)
    (run_main m ρ)

end Cert.KernelIdeal.Run

end
-- ==== Proof.RefValue.lean ====
/-
  The reference program's four results as the target functions of its arguments.

  The reference computes the image embeddings and the two attribute branches' embeddings on whole arrays with
  `dot_general`, a twice-broadcast bias, and a division by the broadcast column of row norms; the distances with an
  absolute value, a power two, a sum and a power one half; and the count with a comparison, a widening and an
  integer sum. The hidden features the second layer reads (the first layer, its batch normalisation and ReLU) are kept
  as the one function of the arguments the program's own stages define; both branches use the same function.
-/
import proofs.«109221_j3925600108806_2_alg».proof.Proof.Gen.ReferenceIdeal.Read
import proofs.«109221_j3925600108806_2_alg».proof.Proof.LibUnitRowsForms
import proofs.«109221_j3925600108806_2_alg».proof.Proof.Target

set_option maxRecDepth 8192

noncomputable section

namespace Cert.ReferenceIdeal.RefValue

open Idealize.ShloMosaic Idealize.ShloMosaic.ValueIdx Cert.ReferenceIdeal Cert.ReferenceIdeal.Gen Cert.ReferenceIdeal.Read
open Cert.Embedding Cert.Forms Cert.Target

variable (x0 : FVec Ideal S16384x2048 .f32) (x1 x2 : FVec Ideal S16384x40 .f32) (x3 : FVec Ideal S2048x256 .f32)
  (x4 : FVec Ideal S256 .f32) (x5 : FVec Ideal S40x256 .f32) (x6 x7 x8 : FVec Ideal S256 .f32) (x9 : FVec Ideal S256x256 .f32)
  (x10 : FVec Ideal S256 .f32)

/-- The hidden features of an attribute array: first layer, batch normalisation, ReLU. -/
abbrev hidden (x : FVec Ideal S16384x40 .f32) : FVec Ideal S16384x256 .f32 := val_main_v33 (F := Ideal) x x5 x6 x7 x8

/-- The second branch's hidden features are the same function of its attribute array. -/
theorem v67_eq : val_main_v67 (F := Ideal) x2 x5 x6 x7 x8 = hidden x5 x6 x7 x8 x2 := rfl

theorem v3_eq : val_main_v3 (F := Ideal) x0 x3 x4 = affine (M := 16384) (K := 2048) (N := 256) x0 x3 (biasRow x4) := by
  unfold val_main_v3 val_main_v0 val_main_v2 val_main_v1
  exact affine_host none x0 x3 x4 bcast_S256_S1x256_1 bcast_S1x256_S16384x256_0_1 rowCast

theorem v74_eq : val_main_v74 (F := Ideal) x0 x3 x4 = embed x0 x3 x4 := by
  unfold val_main_v74 val_main_v73 val_main_v72 val_main_call2_v2 val_main_call2_v1 val_main_call2_v0 val_main_call2_cst
  rw [v3_eq]
  exact unitRows_host _ reducesTo_S16384x256_S16384_d1 h_S_ bcast_S16384_S16384x1_0 bcast_S16384x1_S16384x256_0_1

theorem v37_eq : val_main_v37 (F := Ideal) x1 x5 x6 x7 x8 x9 x10
    = affine (M := 16384) (K := 256) (N := 256) (hidden x5 x6 x7 x8 x1) x9 (biasRow x10) := by
  unfold val_main_v37 val_main_v34 val_main_v36 val_main_v35
  exact affine_host none _ x9 x10 bcast_S256_S1x256_1 bcast_S1x256_S16384x256_0_1 rowCast

theorem v77_eq : val_main_v77 (F := Ideal) x1 x5 x6 x7 x8 x9 x10 = embed (hidden x5 x6 x7 x8 x1) x9 x10 := by
  unfold val_main_v77 val_main_v76 val_main_v75 val_main_call3_v2 val_main_call3_v1 val_main_call3_v0 val_main_call3_cst
  rw [v37_eq]
  exact unitRows_host _ reducesTo_S16384x256_S16384_d1 h_S_ bcast_S16384_S16384x1_0 bcast_S16384x1_S16384x256_0_1

theorem v71_eq : val_main_v71 (F := Ideal) x2 x5 x6 x7 x8 x9 x10
    = affine (M := 16384) (K := 256) (N := 256) (hidden x5 x6 x7 x8 x2) x9 (biasRow x10) := by
  unfold val_main_v71 val_main_v68 val_main_v70 val_main_v69
  rw [v67_eq]
  exact affine_host none _ x9 x10 bcast_S256_S1x256_1 bcast_S1x256_S16384x256_0_1 rowCast

theorem v80_eq : val_main_v80 (F := Ideal) x2 x5 x6 x7 x8 x9 x10 = embed (hidden x5 x6 x7 x8 x2) x9 x10 := by
  unfold val_main_v80 val_main_v79 val_main_v78 val_main_call4_v2 val_main_call4_v1 val_main_call4_v0 val_main_call4_cst
  rw [v71_eq]
  exact unitRows_host _ reducesTo_S16384x256_S16384_d1 h_S_ bcast_S16384_S16384x1_0 bcast_S16384x1_S16384x256_0_1

/-- The distance to the positive example, row by row. -/
theorem v89_apply (r : Fin 16384) : val_main_v89 (F := Ideal) x0 x1 x3 x4 x5 x6 x7 x8 x9 x10 (ix1 r)
    = gap (Ideal.ofBits .f32 εw) (embed x0 x3 x4) (embed (hidden x5 x6 x7 x8 x1) x9 x10) r := by
  unfold val_main_v89 val_main_v88 val_main_cst_12 val_main_v87 val_main_cst_11 val_main_v86 val_main_v85 val_main_cst_10
    val_main_v84 val_main_v83 val_main_v82 val_main_cst_9 val_main_v81
  rw [v74_eq, v77_eq]
  exact gap_host εw _ _ bcast_S_S16384x256 bcast_S_S16384 reducesTo_S16384x256_S16384_d1 h_S_ r

/-- The distance to the negative example, row by row. -/
theorem v98_apply (r : Fin 16384) : val_main_v98 (F := Ideal) x0 x2 x3 x4 x5 x6 x7 x8 x9 x10 (ix1 r)
    = gap (Ideal.ofBits .f32 εw) (embed x0 x3 x4) (embed (hidden x5 x6 x7 x8 x2) x9 x10) r := by
  unfold val_main_v98 val_main_v97 val_main_cst_16 val_main_v96 val_main_cst_15 val_main_v95 val_main_v94 val_main_cst_14
    val_main_v93 val_main_v92 val_main_v91 val_main_cst_13 val_main_v90
  rw [v74_eq, v80_eq]
  exact gap_host εw _ _ bcast_S_S16384x256 bcast_S_S16384 reducesTo_S16384x256_S16384_d1 h_S_ r

/-- The widened margin tests. -/
theorem v102_eq : val_main_v102 (F := Ideal) x0 x1 x2 x3 x4 x5 x6 x7 x8 x9 x10
    = marks (embed x0 x3 x4) (embed (hidden x5 x6 x7 x8 x1) x9 x10) (embed (hidden x5 x6 x7 x8 x2) x9 x10) := by
  funext j
  obtain ⟨r, rfl⟩ : ∃ r : Fin 16384, j = ix1 r := ⟨j 0, eq_ix1 j⟩
  rw [marks_apply]
  unfold val_main_v102 val_main_v101 val_main_v100 val_main_cst_17 val_main_v99
  simp only [extui_apply, cmpf_apply, subf_apply]
  rw [v98_apply, v89_apply, bcastWord_apply]
  rfl

/-- The count. -/
theorem v104_eq : val_main_v104 (F := Ideal) x0 x1 x2 x3 x4 x5 x6 x7 x8 x9 x10
    = correct (embed x0 x3 x4) (embed (hidden x5 x6 x7 x8 x1) x9 x10) (embed (hidden x5 x6 x7 x8 x2) x9 x10) := by
  unfold val_main_v104 val_main_v103 val_main_c correct
  rw [v102_eq]
  exact Count.hostTotal _ reducesTo_S16384_S_d0 h_S_ shapeCasts_S_S1

end Cert.ReferenceIdeal.RefValue

end
-- ==== Proof.lean ====
/-
  The certificate of the fused embedding kernel against its reference.

  Both programs compute, on the extended reals, the same four functions of the arguments: the unit-length rows of
  `img · W_img + b_img`; the unit-length rows of `h · W2 + b2` for the hidden features `h` of the positive and of the
  negative attributes (first layer, batch normalisation and ReLU: the same host operations in both programs); and the
  number of rows whose shifted distance to the negative example exceeds that to the positive one by more than the
  margin. The kernel computes the embeddings and the margin tests on blocks of 1024 rows, which tile the arrays, every
  row depending on its own row of the operands only; it squares by a product and takes square roots where the
  reference raises an absolute value to the power two and a sum to the power one half, which agree on every extended
  real since a sum of squares is never negative; and it sums the 0/1 tests laid out as 128 rows of 128 where the
  reference sums them as one vector. No finiteness of the inputs is used. The idealization rewrote nothing.
-/
import proofs.«109221_j3925600108806_2_alg».proof.Defs
import proofs.«109221_j3925600108806_2_alg».proof.Proof.Gen.Kernel
import proofs.«109221_j3925600108806_2_alg».proof.Proof.Gen.Kernel.Skeleton
import proofs.«109221_j3925600108806_2_alg».proof.Proof.Gen.Kernel.Launch
import proofs.«109221_j3925600108806_2_alg».proof.Proof.Gen.Kernel.Points
import proofs.«109221_j3925600108806_2_alg».proof.Proof.Gen.Kernel.Frame
import proofs.«109221_j3925600108806_2_alg».proof.Proof.Gen.KernelIdeal
import proofs.«109221_j3925600108806_2_alg».proof.Proof.Gen.KernelIdeal.Skeleton
import proofs.«109221_j3925600108806_2_alg».proof.Proof.Gen.KernelIdeal.Launch
import proofs.«109221_j3925600108806_2_alg».proof.Proof.Gen.KernelIdeal.Points
import proofs.«109221_j3925600108806_2_alg».proof.Proof.Gen.KernelIdeal.Frame
import proofs.«109221_j3925600108806_2_alg».proof.Proof.Gen.ReferenceIdeal
import proofs.«109221_j3925600108806_2_alg».proof.Proof.Gen.Pre_finite_inputs
import proofs.«109221_j3925600108806_2_alg».proof.Proof.Gen.ReferenceIdeal.Run
import proofs.«109221_j3925600108806_2_alg».proof.Proof.Gen.ReferenceIdeal.Read
import proofs.«109221_j3925600108806_2_alg».proof.Proof.KernelRun
import proofs.«109221_j3925600108806_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and keeps its arguments. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and keeps its arguments: its run with the results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- From memories agreeing on the arguments both programs end with the four target functions of the arguments. -/
theorem algebraic : Cert.algebraic_KernelIdeal_ReferenceIdeal := by
  intro m ρ m' ρ' _ hagree
  refine ⟨fun c => Cert.KernelIdeal.Out.anchor m c, fun c => Cert.KernelIdeal.Out.pos m c, fun c => Cert.KernelIdeal.Out.neg m c,
    fun c => Cert.Target.correct (Cert.KernelIdeal.Out.anchor m c) (Cert.KernelIdeal.Out.pos m c) (Cert.KernelIdeal.Out.neg m c),
    Cert.KernelIdeal.Run.run m ρ, ?_⟩
  refine (θ_run Cert.ReferenceIdeal.defs _ _).mono (fun _ h c => ?_) (Cert.ReferenceIdeal.Value.run (F := Ideal) m' ρ')
  obtain ⟨h0, h1, h2, h3, hargs⟩ := h c
  obtain ⟨a0, a1, a2, a3, a4, a5, a6, a7, a8, a9, a10⟩ := hagree c
  refine ⟨?_, ?_, ?_, ?_, hargs⟩
  · refine h0.trans ((Cert.ReferenceIdeal.Read.val_main_v74_eq _ _ _).trans ((Cert.ReferenceIdeal.RefValue.v74_eq _ _ _).trans ?_))
    rw [a0, a3, a4]
  · refine h1.trans ((Cert.ReferenceIdeal.Read.val_main_v77_eq m' c).trans ((Cert.ReferenceIdeal.RefValue.v77_eq _ _ _ _ _ _ _).trans ?_))
    rw [a1, a5, a6, a7, a8, a9, a10]
  · refine h2.trans ((Cert.ReferenceIdeal.Read.val_main_v80_eq m' c).trans ((Cert.ReferenceIdeal.RefValue.v80_eq _ _ _ _ _ _ _).trans ?_))
    rw [a2, a5, a6, a7, a8, a9, a10]
  · refine h3.trans ((Cert.ReferenceIdeal.Read.val_main_v104_eq m' c).trans ((Cert.ReferenceIdeal.RefValue.v104_eq _ _ _ _ _ _ _ _ _ _ _).trans ?_))
    rw [a0, a1, a2, a3, a4, a5, a6, a7, a8, a9, a10]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
